-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v6_0)) (v4 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v6_0) = v3 c
          ∧ r.2.mem ((c.tc : Thread Cert.KernelIdeal.nD Cert.KernelIdeal.τ).loc Cert.KernelIdeal.main_v6_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_v28) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x32 : Shape := ⟨2, ![128, 32]⟩
abbrev S32x128 : Shape := ⟨2, ![32, 128]⟩
abbrev S1 : Shape := ⟨1, ![1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x32 : S_.BroadcastsInDim S128x32 (![] : Fin 0 → Fin S128x32.rank)
  reducesTo_S128x32_S_d0_1 : S128x32.ReducesTo [0, 1] S_
  bcast_S_S32x128 : S_.BroadcastsInDim S32x128 (![] : Fin 0 → Fin S32x128.rank)
  reducesTo_S32x128_S_d0_1 : S32x128.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1 .f32) (main_arg12 : FVec F S1 .f32) (main_arg13 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S128x32 .f32) (main_arg8 : FVec F S32x128 .f32) (main_arg9 : FVec F S32x128 .f32) (main_arg10 : FVec F S1 .f32) (main_arg11 : FVec F S1 .f32) (main_arg12 : FVec F S1 .f32) (main_arg13 : FVec F S1 .f32) (main_v33 : IVec S_ 1) : IVec S_ 1 :=
  let main_v34 : FVec F S128x32 .f32 := Host.absf main_arg7
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32x128 .f32 := Host.absf main_arg8
  let main_cst_14 : FVec F S_ .f32 := constant S_ .f32 0x7F800000#32
  let main_v40 : FVec F S32x128 .f32 := broadcastInDim S32x128 ![] bcast_S_S32x128 main_cst_14
  let main_v41 : IVec S32x128 1 := cmpf .olt main_v39 main_v40
  let main_c_15 : IVec S_ 1 := constantI S_ 1 1#1
  let main_v42 : IVec S_ 1 := (fun x v => Host.reduce IntOp.andi x v reducesTo_S32x128_S_d0_1 h_S_) main_v41 main_c_15
  let main_v43 : IVec S_ 1 := andi main_v38 main_v42
  let main_v44 : FVec F S32x128 .f32 := Host.absf main_arg9
  let main_cst_16 : FVec F S_ .f32 := constant S_ .f32 0x7F800000#32
  let main_v45 : FVec F S32x128 .f32 := broadcastInDim S32x128 ![] bcast_S_S32x128 main_cst_16
  let main_v46 : IVec S32x128 1 := cmpf .olt main_v44 main_v45
  let main_c_17 : IVec S_ 1 := constantI S_ 1 1#1
  let main_v47 : IVec S_ 1 := (fun x v => Host.reduce IntOp.andi x v reducesTo_S32x128_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_arg13 main_v48 main_v49 main_v50

def fn_part1 {F : FTy → Type} [FloatOps F] (main_arg4 : FVec F S4096x4096 .f32) (main_arg5 : FVec F S4096x4096 .f32) (main_arg6 : FVec F S128x32 .f32) (main_arg7 : FVec F S128x32 .f32) (main_arg8 : FVec F S32x128 .f32) (main_arg9 : FVec F S32x128 .f32) (main_arg10 : FVec F S1 .f32) (main_arg11 : FVec F S1 .f32) (main_arg12 : FVec F S1 .f32) (main_arg13 : FVec F S1 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S128x32 .f32 := Host.absf main_arg6
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x128 .f32) (main_arg1 : FVec F S4096x128 .f32) (main_arg2 : FVec F S4096x4096 .f32) (main_arg3 : FVec F S4096x4096 .f32) (main_arg4 : FVec F S4096x4096 .f32) (main_arg5 : FVec F S4096x4096 .f32) (main_arg6 : FVec F S128x32 .f32) (main_arg7 : FVec F S128x32 .f32) (main_arg8 : FVec F S32x128 .f32) (main_arg9 : FVec F S32x128 .f32) (main_arg10 : FVec F S1 .f32) (main_arg11 : FVec F S1 .f32) (main_arg12 : FVec F S1 .f32) (main_arg13 : FVec F S1 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x128 : Shape := ⟨2, ![4096, 128]⟩
abbrev S4096x4096 : Shape := ⟨2, ![4096, 4096]⟩
abbrev S128x32 : Shape := ⟨2, ![128, 32]⟩
abbrev S32x128 : Shape := ⟨2, ![32, 128]⟩
abbrev S1 : Shape := ⟨1, ![1]⟩
abbrev S1x1 : Shape := ⟨2, ![1, 1]⟩
abbrev S4096x32 : Shape := ⟨2, ![4096, 32]⟩
abbrev S256x4096 : Shape := ⟨2, ![256, 4096]⟩
abbrev S256x32 : Shape := ⟨2, ![256, 32]⟩
abbrev S512x4096 : Shape := ⟨2, ![512, 4096]⟩
abbrev S512x128 : Shape := ⟨2, ![512, 128]⟩
abbrev S512x32 : Shape := ⟨2, ![512, 32]⟩

abbrev nBuf : Space → Nat
  | .hbm => 27
  | .vmem => 41
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S128x32, .f32⟩
  | .hbm, ⟨7, _⟩ => ⟨S128x32, .f32⟩
  | .hbm, ⟨8, _⟩ => ⟨S32x128, .f32⟩
  | .hbm, ⟨9, _⟩ => ⟨S32x128, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S1x1, .f32⟩
  | .hbm, ⟨15, _⟩ => ⟨S1x1, .f32⟩
  | .hbm, ⟨16, _⟩ => ⟨S1x1, .f32⟩
  | .hbm, ⟨17, _⟩ => ⟨S1x1, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x128, .f32⟩
  | .hbm, ⟨26, _⟩ => ⟨S4096x128, .f32⟩
  | .local _ .vmem, ⟨0, _⟩ => ⟨S4096x128, .f32⟩
  | .local _ .vmem, ⟨1, _⟩ => ⟨S4096x128, .f32⟩
  | .local _ .vmem, ⟨2, _⟩ => ⟨S128x32, .f32⟩
  | .local _ .vmem, ⟨3, _⟩ => ⟨S128x32, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S4096x32, .f32⟩
  | .local _ .vmem, ⟨9, _⟩ => ⟨S4096x32, .f32⟩
  | .local _ .vmem, ⟨10, _⟩ => ⟨S4096x32, .f32⟩
  | .local _ .vmem, ⟨11, _⟩ => ⟨S4096x32, .f32⟩
  | .local _ .vmem, ⟨12, _⟩ => ⟨S256x4096, .f32⟩
  | .local _ .vmem, ⟨13, _⟩ => ⟨S256x4096, .f32⟩
  | .local _ .vmem, ⟨14, _⟩ => ⟨S256x4096, .f32⟩
  | .local _ .vmem, ⟨15, _⟩ => ⟨S256x4096, .f32⟩
  | .local _ .vmem, ⟨16, _⟩ => ⟨S256x4096, .f32⟩
  | .local _ .vmem, ⟨17, _⟩ => ⟨S256x4096, .f32⟩
  | .local _ .vmem, ⟨18, _⟩ => ⟨S256x4096, .f32⟩
  | .local _ .vmem, ⟨19, _⟩ => ⟨S256x4096, .f32⟩
  | .local _ .vmem, ⟨20, _⟩ => ⟨S4096x32, .f32⟩
  | .local _ .vmem, ⟨21, _⟩ => ⟨S4096x32, .f32⟩
  | .local _ .vmem, ⟨22, _⟩ => ⟨S4096x32, .f32⟩
  | .local _ .vmem, ⟨23, _⟩ => ⟨S4096x32, .f32⟩
  | .local _ .vmem, ⟨24, _⟩ => ⟨S256x32, .f32⟩
  | .local _ .vmem, ⟨25, _⟩ => ⟨S256x32, .f32⟩
  | .local _ .vmem, ⟨26, _⟩ => ⟨S256x32, .f32⟩
  | .local _ .vmem, ⟨27, _⟩ => ⟨S256x32, .f32⟩
  | .local _ .vmem, ⟨28, _⟩ => ⟨S256x32, .f32⟩
  | .local _ .vmem, ⟨29, _⟩ => ⟨S256x32, .f32⟩
  | .local _ .vmem, ⟨30, _⟩ => ⟨S512x4096, .f32⟩
  | .local _ .vmem, ⟨31, _⟩ => ⟨S512x4096, .f32⟩
  | .local _ .vmem, ⟨32, _⟩ => ⟨S512x4096, .f32⟩
  | .local _ .vmem, ⟨33, _⟩ => ⟨S512x4096, .f32⟩
  | .local _ .vmem, ⟨34, _⟩ => ⟨S4096x32, .f32⟩
  | .local _ .vmem, ⟨35, _⟩ => ⟨S32x128, .f32⟩
  | .local _ .vmem, ⟨36, _⟩ => ⟨S32x128, .f32⟩
  | .local _ .vmem, ⟨37, _⟩ => ⟨S512x128, .f32⟩
  | .local _ .vmem, ⟨38, _⟩ => ⟨S512x128, .f32⟩
  | .local _ .vmem, ⟨39, _⟩ => ⟨S512x128, .f32⟩
  | .local _ .vmem, ⟨40, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v4_3 : Ref sig .tc := ⟨.hbm, 21, rfl⟩
abbrev main_v5_0 : Ref sig .tc := ⟨.hbm, 22, rfl⟩
abbrev main_v5_1 : Ref sig .tc := ⟨.hbm, 23, rfl⟩
abbrev main_v5_2 : Ref sig .tc := ⟨.hbm, 24, rfl⟩
abbrev main_v6_0 : Ref sig .tc := ⟨.hbm, 25, rfl⟩
abbrev main_v6_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg5_1 : Ref sig .tc := ⟨.vmem, 38, rfl⟩
abbrev cc2_stg6_0 : Ref sig .tc := ⟨.vmem, 39, rfl⟩
abbrev cc2_stg6_1 : Ref sig .tc := ⟨.vmem, 40, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem5_1 : DmaSem sig := 38
abbrev cc2_sem6_0 : DmaSem sig := 39
abbrev cc2_sem6_1 : DmaSem sig := 40

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4096x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4096x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4096x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x32 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S1_S1x1 : S1.ShapeCasts S1x1
  inb_S4096x128_S4096x128_0_0 : ∀ a, (![0, 0] : Fin 2 → Nat) a + S4096x128.size a ≤ S4096x128.size a
  h_S4096x128 : 0 < S4096x128.numel
  inb_S128x32_S128x32_0_0 : ∀ a, (![0, 0] : Fin 2 → Nat) a + S128x32.size a ≤ S128x32.size a
  h_S128x32 : 0 < S128x32.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S4096x32_S4096x32_0_0 : ∀ a, (![0, 0] : Fin 2 → Nat) a + S4096x32.size a ≤ S4096x32.size a
  h_S4096x32 : 0 < S4096x32.numel
  inb_S256x4096_S256x4096_0_0 : ∀ a, (![0, 0] : Fin 2 → Nat) a + S256x4096.size a ≤ S256x4096.size a
  h_S256x4096 : 0 < S256x4096.numel
  shapeCasts_S4096x32_S4096x32 : S4096x32.ShapeCasts S4096x32
  inb_S256x32_S256x32_0_0 : ∀ a, (![0, 0] : Fin 2 → Nat) a + S256x32.size a ≤ S256x32.size a
  h_S256x32 : 0 < S256x32.numel
  inb_S512x4096_S512x4096_0_0 : ∀ a, (![0, 0] : Fin 2 → Nat) a + S512x4096.size a ≤ S512x4096.size a
  h_S512x4096 : 0 < S512x4096.numel
  inb_S32x128_S32x128_0_0 : ∀ a, (![0, 0] : Fin 2 → Nat) a + S32x128.size a ≤ S32x128.size a
  h_S32x128 : 0 < S32x128.numel
  inb_S512x128_S512x128_0_0 : ∀ a, (![0, 0] : Fin 2 → Nat) a + S512x128.size a ≤ S512x128.size a
  h_S512x128 : 0 < S512x128.numel
  dot_S4096x128_S128x32_S4096x32_1_0_0_1_n_n_wf : DotDims.WF S4096x128 S128x32 S4096x32 [1] [0] [0] [1] [] []
  dot_S256x4096_S4096x32_S256x32_1_0_0_1_n_n_wf : DotDims.WF S256x4096 S4096x32 S256x32 [1] [0] [0] [1] [] []
  dot_S512x4096_S4096x32_S512x32_1_0_0_1_n_n_wf : DotDims.WF S512x4096 S4096x32 S512x32 [1] [0] [0] [1] [] []
  dot_S512x32_S32x128_S512x128_1_0_0_1_n_n_wf : DotDims.WF S512x32 S32x128 S512x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .f32 = 32 ∨ (Rect.block (s := S4096x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .f32 = 32 ∨ (Rect.block (s := S4096x4096) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S4096x4096.size a
  hwx1_3 : ∀ i : grid1.Coords, EltTy.bits .f32 = 32 ∨ (Rect.block (s := S4096x4096) S256x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x32.size a ≤ S4096x32.size a
  hwx1_4 : ∀ i : grid1.Coords, EltTy.bits .f32 = 32 ∨ (Rect.block (s := S4096x32) S4096x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096x32.size a ≤ S4096x32.size a
  hwx1_5 : ∀ i : grid1.Coords, EltTy.bits .f32 = 32 ∨ (Rect.block (s := S4096x32) S4096x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4096x32.size a ≤ S4096x32.size a
  hwx1_6 : ∀ i : grid1.Coords, EltTy.bits .f32 = 32 ∨ (Rect.block (s := S4096x32) S4096x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4096x32.size a ≤ S4096x32.size a
  hwx1_7 : ∀ i : grid1.Coords, EltTy.bits .f32 = 32 ∨ (Rect.block (s := S4096x32) S4096x32.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x32.size a ≤ S4096x32.size a
  hwx1_8 : ∀ i : grid1.Coords, EltTy.bits .f32 = 32 ∨ (Rect.block (s := S4096x32) S256x32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x32.size a ≤ S4096x32.size a
  hwx1_9 : ∀ i : grid1.Coords, EltTy.bits .f32 = 32 ∨ (Rect.block (s := S4096x32) S256x32.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S256x32.size a ≤ S4096x32.size a
  hwx1_10 : ∀ i : grid1.Coords, EltTy.bits .f32 = 32 ∨ (Rect.block (s := S4096x32) S256x32.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S4096x4096.size a
  hwx2_1 : ∀ i : grid2.Coords, EltTy.bits .f32 = 32 ∨ (Rect.block (s := S4096x4096) S512x4096.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x32.size a ≤ S4096x32.size a
  hwx2_2 : ∀ i : grid2.Coords, EltTy.bits .f32 = 32 ∨ (Rect.block (s := S4096x32) S4096x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x128.size a ≤ S32x128.size a
  hwx2_3 : ∀ i : grid2.Coords, EltTy.bits .f32 = 32 ∨ (Rect.block (s := S32x128) S32x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x128.size a ≤ S32x128.size a
  hwx2_4 : ∀ i : grid2.Coords, EltTy.bits .f32 = 32 ∨ (Rect.block (s := S32x128) S32x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S4096x128.size a
  hwx2_5 : ∀ i : grid2.Coords, EltTy.bits .f32 = 32 ∨ (Rect.block (s := S4096x128) S512x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x128.size a ≤ S4096x128.size a
  hwx2_6 : ∀ i : grid2.Coords, EltTy.bits .f32 = 32 ∨ (Rect.block (s := S4096x128) S512x128.size (cc2_transform_6 i) (hinb2_6 i)).WholeWords (EltTy.packing .f32)

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S256x4096_S4096x32_S256x32_1_0_0_1_n_n : DotDims S256x4096 S4096x32 S256x32 where
  lhsContracting := [1]
  rhsContracting := [0]
  lhsNonContracting := [0]
  rhsNonContracting := [1]
  lhsBatch := []
  rhsBatch := []
  wf := dot_S256x4096_S4096x32_S256x32_1_0_0_1_n_n_wf
def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf
def dot_S512x32_S32x128_S512x128_1_0_0_1_n_n : DotDims S512x32 S32x128 S512x128 where
  lhsContracting := [1]
  rhsContracting := [0]
  lhsNonContracting := [0]
  rhsNonContracting := [1]
  lhsBatch := []
  rhsBatch := []
  wf := dot_S512x32_S32x128_S512x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg6) false false (stage0_2 0) (sem0_2 0) (Memref.isWhole_whole _) (hstage0_2 0)

abbrev win0_3 : Pipeline.Window sig grid0 :=
  Pipeline.Window.whole (Memref.whole main_arg7) false false (stage0_3 0) (sem0_3 0) (Memref.isWhole_whole _) (hstage0_3 0)

abbrev win0_4 : Pipeline.Window sig grid0 :=
  Pipeline.Window.whole (Memref.whole main_v0) false false (stage0_4 0) (sem0_4 0) (Memref.isWhole_whole _) (hstage0_4 0)

abbrev win0_5 : Pipeline.Window sig grid0 :=
  Pipeline.Window.whole (Memref.whole main_v1) false false (stage0_5 0) (sem0_5 0) (Memref.isWhole_whole _) (hstage0_5 0)

abbrev win0_6 : Pipeline.Window sig grid0 :=
  Pipeline.Window.whole (Memref.whole main_v2) false false (stage0_6 0) (sem0_6 0) (Memref.isWhole_whole _) (hstage0_6 0)

abbrev win0_7 : Pipeline.Window sig grid0 :=
  Pipeline.Window.whole (Memref.whole main_v3) false false (stage0_7 0) (sem0_7 0) (Memref.isWhole_whole _) (hstage0_7 0)

abbrev win0_8 : Pipeline.Window sig grid0 :=
  Pipeline.Window.whole (Memref.whole main_v4_0) true false (stage0_8 0) (sem0_8 0) (Memref.isWhole_whole _) (hstage0_8 0)

abbrev win0_9 : Pipeline.Window sig grid0 :=
  Pipeline.Window.whole (Memref.whole main_v4_1) true false (stage0_9 0) (sem0_9 0) (Memref.isWhole_whole _) (hstage0_9 0)

abbrev win0_10 : Pipeline.Window sig grid0 :=
  Pipeline.Window.whole (Memref.whole main_v4_2) true false (stage0_10 0) (sem0_10 0) (Memref.isWhole_whole _) (hstage0_10 0)

abbrev win0_11 : Pipeline.Window sig grid0 :=
  Pipeline.Window.whole (Memref.whole main_v4_3) true false (stage0_11 0) (sem0_11 0) (Memref.isWhole_whole _) (hstage0_11 0)

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg2) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4_0) S4096x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4_1) S4096x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4_2) S4096x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4_3) S4096x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v5_0) S256x32.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v5_1) S256x32.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v5_2) S256x32.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_arg2) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5_2) S4096x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S32x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S32x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6_0) S512x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v6_1) S512x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x32 : Shape := ⟨2, ![128, 32]⟩
abbrev S32x128 : Shape := ⟨2, ![32, 128]⟩
abbrev S1 : Shape := ⟨1, ![1]⟩
abbrev S4096x32 : Shape := ⟨2, ![4096, 32]⟩
abbrev S1x1 : Shape := ⟨2, ![1, 1]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S128x32, .f32⟩
  | .hbm, ⟨7, _⟩ => ⟨S128x32, .f32⟩
  | .hbm, ⟨8, _⟩ => ⟨S32x128, .f32⟩
  | .hbm, ⟨9, _⟩ => ⟨S32x128, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S1, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S1x1, .f32⟩
  | .hbm, ⟨23, _⟩ => ⟨S4096x32, .f32⟩
  | .hbm, ⟨24, _⟩ => ⟨S4096x32, .f32⟩
  | .hbm, ⟨25, _⟩ => ⟨S1x1, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S1x1, .f32⟩
  | .hbm, ⟨30, _⟩ => ⟨S4096x32, .f32⟩
  | .hbm, ⟨31, _⟩ => ⟨S4096x32, .f32⟩
  | .hbm, ⟨32, _⟩ => ⟨S1x1, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S_, .f32⟩
  | .hbm, ⟨38, _⟩ => ⟨S4096x32, .f32⟩
  | .hbm, ⟨39, _⟩ => ⟨S4096x32, .f32⟩
  | .hbm, ⟨40, _⟩ => ⟨S4096x128, .f32⟩
  | .hbm, ⟨41, _⟩ => ⟨S4096x128, .f32⟩
  | .hbm, ⟨42, _⟩ => ⟨S4096x128, .f32⟩
  | .hbm, ⟨43, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S4096x32_0_1 : S1x1.BroadcastsInDim S4096x32 (![0, 1] : Fin 2 → Fin S4096x32.rank)
  bcast_S_S4096x32 : S_.BroadcastsInDim S4096x32 (![] : Fin 0 → Fin S4096x32.rank)
  dot_S4096x128_S128x32_S4096x32_1_0_0_1_n_n_wf : DotDims.WF S4096x128 S128x32 S4096x32 [1] [0] [0] [1] [] []
  dot_S4096x4096_S4096x32_S4096x32_1_0_0_1_n_n_wf : DotDims.WF S4096x4096 S4096x32 S4096x32 [1] [0] [0] [1] [] []
  dot_S4096x32_S32x128_S4096x128_1_0_0_1_n_n_wf : DotDims.WF S4096x32 S32x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf
def dot_S4096x32_S32x128_S4096x128_1_0_0_1_n_n : DotDims S4096x32 S32x128 S4096x128 where
  lhsContracting := [1]
  rhsContracting := [0]
  lhsNonContracting := [0]
  rhsNonContracting := [1]
  lhsBatch := []
  rhsBatch := []
  wf := dot_S4096x32_S32x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.Spec.lean ====
/-
  The mathematics of the two programs, index by index, over arrays of extended reals.

  Both programs compute, from two feature matrices `f`, two projection matrices `W`, four dense adjacency
  matrices `A`, four scalars `w` and two decoder matrices `D`:

    latent  = w · (A_spatial · (f · W)) + w' · (A_feature · (f · W))      (once per modality)
    combined = (latent₁ + latent₂) / 2
    recon   = A_spatial · (combined · D)                                   (once per modality)

  The kernel arranges the same sums differently: it multiplies the projected features by the scalar BEFORE
  the product with the adjacency (`A · ((f · W) · w)`), halves by multiplying with the float `0.5`, and
  brackets the last product the other way (`(A · combined) · D`). This module names the pieces (`mm`, the
  entrywise product of a matrix product; scaling; sum; halving) and the two arrangements.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An `n × p` array of extended reals, indexed by a row and a column coordinate. -/
abbrev Mat (n p : ℕ) : Type := (⟨2, ![n, p]⟩ : Shape).Idx → EReal

/-- The matrix product, entry by entry: entry `(r, c)` is the sum over `q` of `A (r, q) · B (q, c)`. -/
def mm {n k p : ℕ} (A : Mat n k) (B : Mat k p) : Mat n p :=
  fun i => ∑ q : Fin k, A (ix2 (n0 := n) (n1 := k) (i 0) q) * B (ix2 (n0 := k) (n1 := p) q (i 1))

/-- Every entry times one scalar, the scalar on the right. -/
def scaleR {n p : ℕ} (P : Mat n p) (w : EReal) : Mat n p := fun i => P i * w

/-- Every entry times one scalar, the scalar on the left. -/
def scaleL {n p : ℕ} (w : EReal) (P : Mat n p) : Mat n p := fun i => w * P i

/-- The entrywise sum. -/
def add {n p : ℕ} (X Y : Mat n p) : Mat n p := fun i => X i + Y i

/-- The float `0.5`. -/
def half : EReal := Ideal.ofBits .f32 0x3F000000#32

/-- The float `2.0`. -/
def two : EReal := Ideal.ofBits .f32 0x40000000#32

/-- Every entry multiplied by the float `0.5`. -/
def halfMul {n p : ℕ} (X : Mat n p) : Mat n p := fun i => half * X i

/-- Every entry divided by the float `2.0`. -/
def divTwo {n p : ℕ} (X : Mat n p) : Mat n p := fun i => Ideal.div (X i) two

/-- Every entry is a real number (neither infinity). -/
def Finite {s : Shape} (X : s.Idx → EReal) : Prop := ∀ i, X i ≠ ⊥ ∧ X i ≠ ⊤

/-! ## The kernel's arrangement -/

/-- The projected features, already scaled: `(f · W) · w`. -/
def kProj {n k p : ℕ} (f : Mat n k) (W : Mat k p) (w : EReal) : Mat n p := scaleR (mm f W) w

/-- A latent: `A · R + B · R'` for two adjacencies and two scaled projections. -/
def kLat {n k p : ℕ} (A B : Mat n k) (R R' : Mat k p) : Mat n p := add (mm A R) (mm B R')

/-- The combined latent: `0.5 · (l + l')`. -/
def kComb {n p : ℕ} (l l' : Mat n p) : Mat n p := halfMul (add l l')

/-- A reconstruction: `(A · C) · D`. -/
def kRec {n k p r : ℕ} (A : Mat n k) (C : Mat k p) (D : Mat p r) : Mat n r := mm (mm A C) D

/-! ## The reference's arrangement -/

/-- A latent: `w · (A · (f · W)) + w' · (B · (f · W))`. -/
def rLat {n k d p : ℕ} (A B : Mat n k) (f : Mat k d) (W : Mat d p) (w w' : EReal) : Mat n p :=
  add (scaleL w (mm A (mm f W))) (scaleL w' (mm B (mm f W)))

/-- The combined latent: `(l + l') / 2`. -/
def rComb {n p : ℕ} (l l' : Mat n p) : Mat n p := divTwo (add l l')

/-- A reconstruction: `A · (C · D)`. -/
def rRec {n k p r : ℕ} (A : Mat n k) (C : Mat k p) (D : Mat p r) : Mat n r := mm A (mm C D)

end Cert.Spec

end
-- ==== Proof.Algebra.lean ====
/-
  The algebra that joins the kernel's arrangement of the sums to the reference's, on arrays of extended
  reals all of whose entries are real.

  In the extended reals the distributive law `x · (a + b) = x · a + x · b` and moving a factor across a sum
  fail at the infinities; they hold when every entry is a real number. So each array without an infinite
  entry is written as an array of reals read in the extended reals (`toE`), every piece of the specification
  (matrix product, scalings, sum, halving) is computed on such arrays as the same operation on the reals,
  and the three identities become identities of finite real sums:

    * a scalar moves out of the right factor of a matrix product,
    * multiplying by `0.5` is dividing by `2` (this one holds for every extended real),
    * the matrix product is associative.

  Everything is generic in the extents.
-/
import proofs.«110364_g68247030333984_cont_9to1_m_654_3_alg».proof.Proof.Spec

noncomputable section

namespace Cert.Spec

open Idealize.ShloMosaic Idealize.ShloMosaic.ValueIdx

/-! ## The two float constants -/

/-- The float `0.5` is the real number one half. -/
theorem half_eq : half = ((1 / 2 : ℝ) : EReal) := by
  simp [half, Ideal.ofBits, Ideal.ieee, -EReal.coe_mul]; norm_num

/-- The float `2.0` is the real number two. -/
theorem two_eq : two = ((2 : ℝ) : EReal) := by
  simp [two, Ideal.ofBits, Ideal.ieee, -EReal.coe_mul]; norm_num

/-! ## Arrays of reals inside the arrays of extended reals -/

/-- A finite sum of reals, read in the extended reals, is the sum of the readings. -/
theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- An array of reals read as an array of extended reals. -/
def toE {s : Shape} (x : s.Idx → ℝ) : s.Idx → EReal := fun i => ((x i : ℝ) : EReal)

/-- An array of reals has no infinite entry. -/
theorem finite_toE {s : Shape} (x : s.Idx → ℝ) : Finite (toE x) :=
  fun i => ⟨EReal.coe_ne_bot (x i), EReal.coe_ne_top (x i)⟩

/-- An array without infinite entries is an array of reals. -/
theorem exists_toE {s : Shape} {X : s.Idx → EReal} (hX : Finite X) : ∃ x : s.Idx → ℝ, X = toE x :=
  ⟨fun i => (X i).toReal, funext fun i => (EReal.coe_toReal (hX i).2 (hX i).1).symm⟩

/-- The matrix product of two real matrices, entry by entry. -/
def mmR {n k p : ℕ} (a : (⟨2, ![n, k]⟩ : Shape).Idx → ℝ) (b : (⟨2, ![k, p]⟩ : Shape).Idx → ℝ) :
    (⟨2, ![n, p]⟩ : Shape).Idx → ℝ :=
  fun i => ∑ q : Fin k, a (ix2 (n0 := n) (n1 := k) (i 0) q) * b (ix2 (n0 := k) (n1 := p) q (i 1))

/-- Entry `(r, c)` of the real matrix product is the sum over `q` of `a (r, q) · b (q, c)`. -/
theorem mmR_apply {n k p : ℕ} (a : (⟨2, ![n, k]⟩ : Shape).Idx → ℝ) (b : (⟨2, ![k, p]⟩ : Shape).Idx → ℝ)
    (r : Fin n) (c : Fin p) :
    mmR a b (ix2 r c) = ∑ q : Fin k, a (ix2 r q) * b (ix2 q c) := rfl

/-- The product of two matrices of reals is the real matrix product. -/
theorem mm_toE {n k p : ℕ} (a : (⟨2, ![n, k]⟩ : Shape).Idx → ℝ) (b : (⟨2, ![k, p]⟩ : Shape).Idx → ℝ) :
    mm (toE a) (toE b) = toE (mmR a b) := by
  funext i
  show ∑ q : Fin k, ((a (ix2 (i 0) q) : ℝ) : EReal) * ((b (ix2 q (i 1)) : ℝ) : EReal)
      = ((∑ q : Fin k, a (ix2 (i 0) q) * b (ix2 q (i 1)) : ℝ) : EReal)
  rw [← coe_sum]
  exact Finset.sum_congr rfl fun q _ => (EReal.coe_mul _ _).symm

/-- Scaling a matrix of reals by a real on the right. -/
theorem scaleR_toE {n p : ℕ} (g : (⟨2, ![n, p]⟩ : Shape).Idx → ℝ) (u : ℝ) :
    scaleR (toE g) (u : EReal) = toE (fun i => g i * u) :=
  funext fun i => (EReal.coe_mul (g i) u).symm

/-- Scaling a matrix of reals by a real on the left. -/
theorem scaleL_toE {n p : ℕ} (u : ℝ) (g : (⟨2, ![n, p]⟩ : Shape).Idx → ℝ) :
    scaleL (u : EReal) (toE g) = toE (fun i => u * g i) :=
  funext fun i => (EReal.coe_mul u (g i)).symm

/-- The sum of two matrices of reals. -/
theorem add_toE {n p : ℕ} (x y : (⟨2, ![n, p]⟩ : Shape).Idx → ℝ) :
    add (toE x) (toE y) = toE (fun i => x i + y i) :=
  funext fun i => (EReal.coe_add (x i) (y i)).symm

/-- Dividing a matrix of reals by the float `2.0` halves every entry. -/
theorem divTwo_toE {n p : ℕ} (x : (⟨2, ![n, p]⟩ : Shape).Idx → ℝ) :
    divTwo (toE x) = toE (fun i => x i * (1 / 2)) := by
  funext i
  show Ideal.div ((x i : ℝ) : EReal) two = ((x i * (1 / 2) : ℝ) : EReal)
  rw [two_eq, Ideal.div_coe (by norm_num : (2 : ℝ) ≠ 0), EReal.coe_mul]

/-- A real scalar moves out of the right factor of a real matrix product:
    `∑ q, a (r, q) · (g (q, c) · u) = u · ∑ q, a (r, q) · g (q, c)`. -/
theorem mmR_scale {n k p : ℕ} (a : (⟨2, ![n, k]⟩ : Shape).Idx → ℝ) (g : (⟨2, ![k, p]⟩ : Shape).Idx → ℝ)
    (u : ℝ) : mmR a (fun j => g j * u) = fun i => u * mmR a g i := by
  funext i
  show ∑ q : Fin k, a (ix2 (i 0) q) * (g (ix2 q (i 1)) * u)
      = u * ∑ q : Fin k, a (ix2 (i 0) q) * g (ix2 q (i 1))
  rw [Finset.mul_sum]
  exact Finset.sum_congr rfl fun q _ => by ring

/-- The real matrix product is associative: `(a · c) · e = a · (c · e)`. -/
theorem mmR_assoc {n k p r : ℕ} (a : (⟨2, ![n, k]⟩ : Shape).Idx → ℝ) (c : (⟨2, ![k, p]⟩ : Shape).Idx → ℝ)
    (e : (⟨2, ![p, r]⟩ : Shape).Idx → ℝ) : mmR (mmR a c) e = mmR a (mmR c e) := by
  funext i
  obtain ⟨x, y, rfl⟩ : ∃ x y, i = ix2 x y := ⟨i 0, i 1, eq_ix2 i⟩
  simp only [mmR_apply, Finset.sum_mul, Finset.mul_sum]
  rw [Finset.sum_comm]
  exact Finset.sum_congr rfl fun t _ => Finset.sum_congr rfl fun q _ => by ring

/-! ## Finiteness of the pieces -/

/-- A product of two matrices of reals is a matrix of reals. -/
theorem finite_mm {n k p : ℕ} {A : Mat n k} {B : Mat k p} (hA : Finite A) (hB : Finite B) :
    Finite (mm A B) := by
  obtain ⟨a, rfl⟩ := exists_toE hA
  obtain ⟨b, rfl⟩ := exists_toE hB
  rw [mm_toE]
  exact finite_toE _

/-- The reference's latent on real inputs, as an array of reals. -/
theorem rLat_toE {n k d p : ℕ} (a b : (⟨2, ![n, k]⟩ : Shape).Idx → ℝ) (f : (⟨2, ![k, d]⟩ : Shape).Idx → ℝ)
    (W : (⟨2, ![d, p]⟩ : Shape).Idx → ℝ) (u u' : ℝ) :
    rLat (toE a) (toE b) (toE f) (toE W) (u : EReal) (u' : EReal)
      = toE (fun i => u * mmR a (mmR f W) i + u' * mmR b (mmR f W) i) := by
  rw [rLat, mm_toE, mm_toE, mm_toE, scaleL_toE, scaleL_toE, add_toE]

/-- The reference's latent of real inputs has no infinite entry. -/
theorem finite_rLat {n k d p : ℕ} {A B : Mat n k} {f : Mat k d} {W : Mat d p} {w w' : EReal}
    (hA : Finite A) (hB : Finite B) (hf : Finite f) (hW : Finite W)
    (hw : w ≠ ⊥ ∧ w ≠ ⊤) (hw' : w' ≠ ⊥ ∧ w' ≠ ⊤) : Finite (rLat A B f W w w') := by
  obtain ⟨a, rfl⟩ := exists_toE hA
  obtain ⟨b, rfl⟩ := exists_toE hB
  obtain ⟨f', rfl⟩ := exists_toE hf
  obtain ⟨W', rfl⟩ := exists_toE hW
  lift w to ℝ using ⟨hw.2, hw.1⟩
  lift w' to ℝ using ⟨hw'.2, hw'.1⟩
  rw [rLat_toE]
  exact finite_toE _

/-- Half the sum of two matrices of reals is a matrix of reals. -/
theorem finite_rComb {n p : ℕ} {l l' : Mat n p} (hl : Finite l) (hl' : Finite l') :
    Finite (rComb l l') := by
  obtain ⟨x, rfl⟩ := exists_toE hl
  obtain ⟨y, rfl⟩ := exists_toE hl'
  rw [rComb, add_toE, divTwo_toE]
  exact finite_toE _

/-! ## The kernel's arrangement equals the reference's -/

/-- On real inputs, scaling the projected features before the product with the adjacency gives the same
    latent as scaling after it:
    `∑ q, A (r, q) · ((f · W) (q, c) · w) + ∑ q, B (r, q) · ((f · W) (q, c) · w')`
    `= w · ∑ q, A (r, q) · (f · W) (q, c) + w' · ∑ q, B (r, q) · (f · W) (q, c)`. -/
theorem lat_eq {n k d p : ℕ} {A B : Mat n k} {f : Mat k d} {W : Mat d p} {w w' : EReal}
    (hA : Finite A) (hB : Finite B) (hf : Finite f) (hW : Finite W)
    (hw : w ≠ ⊥ ∧ w ≠ ⊤) (hw' : w' ≠ ⊥ ∧ w' ≠ ⊤) :
    kLat A B (kProj f W w) (kProj f W w') = rLat A B f W w w' := by
  obtain ⟨a, rfl⟩ := exists_toE hA
  obtain ⟨b, rfl⟩ := exists_toE hB
  obtain ⟨f', rfl⟩ := exists_toE hf
  obtain ⟨W', rfl⟩ := exists_toE hW
  lift w to ℝ using ⟨hw.2, hw.1⟩
  lift w' to ℝ using ⟨hw'.2, hw'.1⟩
  rw [rLat_toE, kLat, kProj, kProj, mm_toE, scaleR_toE, scaleR_toE, mm_toE, mm_toE, add_toE,
    mmR_scale, mmR_scale]

/-- Multiplying by the float `0.5` is dividing by the float `2.0`, for every extended real. -/
theorem comb_eq {n p : ℕ} (l l' : Mat n p) : kComb l l' = rComb l l' := by
  funext i
  show half * add l l' i = Ideal.div (add l l' i) two
  rw [half_eq, two_eq, Ideal.div_coe (by norm_num : (2 : ℝ) ≠ 0), mul_comm]

/-- On real inputs the two bracketings of the triple product agree: `(A · C) · D = A · (C · D)`. -/
theorem rec_eq {n k p r : ℕ} {A : Mat n k} {C : Mat k p} {D : Mat p r}
    (hA : Finite A) (hC : Finite C) (hD : Finite D) : kRec A C D = rRec A C D := by
  obtain ⟨a, rfl⟩ := exists_toE hA
  obtain ⟨c, rfl⟩ := exists_toE hC
  obtain ⟨e, rfl⟩ := exists_toE hD
  rw [kRec, rRec, mm_toE, mm_toE, mm_toE, mm_toE, mmR_assoc]

/-! ## The five results together -/

/-- All five results at once, on real inputs (square adjacencies, so that a latent can be multiplied by an
    adjacency again): the two latents, the combined latent and the two reconstructions of the kernel's
    arrangement equal the reference's. The latents are the scalar law twice; the combined latent is the
    halving law on the rewritten latents; each reconstruction is associativity, the middle factor being the
    reference's combined latent, which is real because the latents are. -/
theorem results_eq {n d p r : ℕ} {a0 a1 : Mat n d} {a2 a3 a4 a5 : Mat n n} {a6 a7 : Mat d p}
    {a8 a9 : Mat p r} {w10 w11 w12 w13 : EReal}
    (h0 : Finite a0) (h1 : Finite a1) (h2 : Finite a2) (h3 : Finite a3) (h4 : Finite a4) (h5 : Finite a5)
    (h6 : Finite a6) (h7 : Finite a7) (h8 : Finite a8) (h9 : Finite a9)
    (h10 : w10 ≠ ⊥ ∧ w10 ≠ ⊤) (h11 : w11 ≠ ⊥ ∧ w11 ≠ ⊤) (h12 : w12 ≠ ⊥ ∧ w12 ≠ ⊤)
    (h13 : w13 ≠ ⊥ ∧ w13 ≠ ⊤) :
    kLat a2 a3 (kProj a0 a6 w10) (kProj a0 a6 w12) = rLat a2 a3 a0 a6 w10 w12
    ∧ kLat a4 a5 (kProj a1 a7 w11) (kProj a1 a7 w13) = rLat a4 a5 a1 a7 w11 w13
    ∧ kComb (kLat a2 a3 (kProj a0 a6 w10) (kProj a0 a6 w12))
          (kLat a4 a5 (kProj a1 a7 w11) (kProj a1 a7 w13))
        = rComb (rLat a2 a3 a0 a6 w10 w12) (rLat a4 a5 a1 a7 w11 w13)
    ∧ kRec a2 (kComb (kLat a2 a3 (kProj a0 a6 w10) (kProj a0 a6 w12))
          (kLat a4 a5 (kProj a1 a7 w11) (kProj a1 a7 w13))) a8
        = rRec a2 (rComb (rLat a2 a3 a0 a6 w10 w12) (rLat a4 a5 a1 a7 w11 w13)) a8
    ∧ kRec a4 (kComb (kLat a2 a3 (kProj a0 a6 w10) (kProj a0 a6 w12))
          (kLat a4 a5 (kProj a1 a7 w11) (kProj a1 a7 w13))) a9
        = rRec a4 (rComb (rLat a2 a3 a0 a6 w10 w12) (rLat a4 a5 a1 a7 w11 w13)) a9 := by
  have e1 := lat_eq h2 h3 h0 h6 h10 h12
  have e2 := lat_eq h4 h5 h1 h7 h11 h13
  have f1 := finite_rLat h2 h3 h0 h6 h10 h12
  have f2 := finite_rLat h4 h5 h1 h7 h11 h13
  have ec : kComb (kLat a2 a3 (kProj a0 a6 w10) (kProj a0 a6 w12))
        (kLat a4 a5 (kProj a1 a7 w11) (kProj a1 a7 w13))
      = rComb (rLat a2 a3 a0 a6 w10 w12) (rLat a4 a5 a1 a7 w11 w13) := by
    rw [e1, e2]; exact comb_eq _ _
  refine ⟨e1, e2, ec, ?_, ?_⟩
  · rw [ec]; exact rec_eq h2 (finite_rComb f1 f2) h8
  · rw [ec]; exact rec_eq h4 (finite_rComb f1 f2) h9

end Cert.Spec

end
-- ==== Proof.FiniteInputs.lean ====
/-
  The precondition "every float input is finite", read back.

  The printed predicate takes the fourteen argument arrays. For each array it forms, entry by entry, the bit
  |x| < +∞, folds those bits by "and" over the whole array into one bit (an "all"), and joins the fourteen
  resulting bits by "and". The claim that the result is one therefore says: for every array, every entry x has
  |x| < +∞. Over the extended reals |x| = max x (-x), which is +∞ at both infinities, so |x| < +∞ holds exactly
  when x is a real number. `finite_of_fn` is this reading, one conjunct per array.
-/
import proofs.«110364_g68247030333984_cont_9to1_m_654_3_alg».proof.Proof.Gen.Pre_finite_inputs
import proofs.«110364_g68247030333984_cont_9to1_m_654_3_alg».proof.Proof.Spec
import Idealize.ShloMosaic.Lib.ReduceAll
import Idealize.ShloMosaic.Lib.ValueIdx
import Idealize.ShloMosaic.PureOps.Ideal

noncomputable section

namespace Cert.FiniteInputs

open Idealize.ShloMosaic

/-- The rank-0 shape has one index. -/
instance : Subsingleton Cert.Pre_finite_inputs.S_.Idx := ⟨fun a b => funext fun d => d.elim0⟩

/-- The f32 pattern 0x7F800000 denotes +∞. -/
theorem inf_eq_top : Ideal.ofBits .f32 0x7F800000#32 = (⊤ : EReal) := by
  simp [Ideal.ofBits, Ideal.ieee]

/-- |x| < +∞ means x is a real: the absolute value max x (-x) of either infinity is +∞. -/
theorem real_of_abs_lt_inf (x : EReal)
    (h : Ideal.cmp .olt (max x (-x)) (Ideal.ofBits .f32 0x7F800000#32) = 1#1) : x ≠ ⊥ ∧ x ≠ ⊤ := by
  rw [inf_eq_top] at h
  have hlt : max x (-x) < ⊤ := by
    by_contra hn
    simp [Ideal.cmp, hn] at h
  constructor
  · rintro rfl
    simp at hlt
  · rintro rfl
    simp at hlt

/-- One argument array: if the "all" over the array of the bits |x| < +∞ is one, every entry is a real. -/
theorem finite_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a) (broadcastInDim s ![] hb (constant Cert.Pre_finite_inputs.S_ .f32 0x7F800000#32)))
          (constantI Cert.Pre_finite_inputs.S_ 1 1#1) hr hu ValueIdx.ix0 = 1#1) :
    Cert.Spec.Finite a := by
  intro i
  -- an "all" over the array is one only if every element's bit is
  have hi := Host.reduce_andi_all _ _ hr hu ValueIdx.ix0 e i
  -- the element's bit is the comparison |a i| < +∞
  exact real_of_abs_lt_inf (a i) hi

open Cert.Pre_finite_inputs in
/-- The precondition decoded: if the printed predicate of the fourteen argument arrays is one, every entry of
    every array is a real number. -/
theorem finite_of_fn
    (a0 a1 : FVec Ideal S4096x128 .f32) (a2 a3 a4 a5 : FVec Ideal S4096x4096 .f32)
    (a6 a7 : FVec Ideal S128x32 .f32) (a8 a9 : FVec Ideal S32x128 .f32)
    (a10 a11 a12 a13 : FVec Ideal S1 .f32)
    (h : Cert.Pre_finite_inputs.fn (F := Ideal) a0 a1 a2 a3 a4 a5 a6 a7 a8 a9 a10 a11 a12 a13 = fun _ => 1#1) :
    Cert.Spec.Finite a0 ∧ Cert.Spec.Finite a1 ∧ Cert.Spec.Finite a2 ∧ Cert.Spec.Finite a3
      ∧ Cert.Spec.Finite a4 ∧ Cert.Spec.Finite a5 ∧ Cert.Spec.Finite a6 ∧ Cert.Spec.Finite a7
      ∧ Cert.Spec.Finite a8 ∧ Cert.Spec.Finite a9 ∧ Cert.Spec.Finite a10 ∧ Cert.Spec.Finite a11
      ∧ Cert.Spec.Finite a12 ∧ Cert.Spec.Finite a13 := by
  -- the predicate's one result bit
  have e := congrFun h ValueIdx.ix0
  unfold Cert.Pre_finite_inputs.fn Cert.Pre_finite_inputs.fn_part1 Cert.Pre_finite_inputs.fn_part2
    Cert.Pre_finite_inputs.fn_part3 Cert.Pre_finite_inputs.fn_part4 at e
  dsimp only at e
  -- the conjunction of the fourteen "all finite" bits is one, hence each of them is
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  -- each bit is an "all" over its array of the bits |x| < +∞
  exact ⟨finite_of_all a0 _ _ _ e0, finite_of_all a1 _ _ _ e1, finite_of_all a2 _ _ _ e2, finite_of_all a3 _ _ _ e3,
    finite_of_all a4 _ _ _ e4, finite_of_all a5 _ _ _ e5, finite_of_all a6 _ _ _ e6, finite_of_all a7 _ _ _ e7,
    finite_of_all a8 _ _ _ e8, finite_of_all a9 _ _ _ e9, finite_of_all a10 _ _ _ e10, finite_of_all a11 _ _ _ e11,
    finite_of_all a12 _ _ _ e12, finite_of_all a13 _ _ _ e13⟩

end Cert.FiniteInputs

end
-- ==== Proof.RefSpec.lean ====
/-
  The reference program, stage by stage, is the reference arrangement of the specification.

  The generated reading of the reference program gives every stage at an index: a matrix product's entry
  `(r, c)` is the sum over `q` of the left operand at `(r, q)` times the right operand at `(q, c)`; a scalar
  broadcast to a full matrix reads the one entry of the scalar at every index; products, sums and the division
  by the constant matrix of twos are entrywise. This module turns each of those readings into an equation
  between whole arrays and chains them:

    latent₁   = w₁ · (A₁ · (f₁ · W₁)) + w₁' · (A₁' · (f₁ · W₁))
    latent₂   = w₂ · (A₂ · (f₂ · W₂)) + w₂' · (A₂' · (f₂ · W₂))
    combined  = (latent₁ + latent₂) / 2
    recon₁    = A₁ · (combined · D₁)
    recon₂    = A₂ · (combined · D₂)

  with exactly the bracketing and the order of factors of `Spec.rLat`, `Spec.rComb` and `Spec.rRec`. No
  arithmetic law is used: every step is the definition of the operation, read at an index.
-/
import proofs.«110364_g68247030333984_cont_9to1_m_654_3_alg».proof.Proof.RefRead
import proofs.«110364_g68247030333984_cont_9to1_m_654_3_alg».proof.Proof.Spec
import Idealize.ShloMosaic.Lib.ValueIdx
import Idealize.ShloMosaic.PureOps.Ideal.Laws

noncomputable section

namespace Cert.RefSpec

open Cert.ReferenceIdeal Cert.ReferenceIdeal.ReadP Idealize.ShloMosaic Idealize.ShloMosaic.ValueIdx

/-! ## The two shapes of step that are not entrywise -/

/-- An array whose entry `(r, c)` is the sum over `q` of `A (r, q) · B (q, c)` is the matrix product `A · B`.
    The two index functions are the ones the entrywise reading names; `hl` and `hr` say that they build the
    indices `(r, q)` and `(q, c)` from the coordinates `r = i 0`, `c = i 1` of the result's index `i`. -/
theorem mm_of_apply {n k p : ℕ} {A : Spec.Mat n k} {B : Spec.Mat k p} {y : Spec.Mat n p}
    {lidx : (⟨2, ![n, p]⟩ : Shape).Idx → Fin k → (⟨2, ![n, k]⟩ : Shape).Idx}
    {ridx : (⟨2, ![n, p]⟩ : Shape).Idx → Fin k → (⟨2, ![k, p]⟩ : Shape).Idx}
    (hl : ∀ i q, lidx i q = ix2 (n0 := n) (n1 := k) (i 0) q)
    (hr : ∀ i q, ridx i q = ix2 (n0 := k) (n1 := p) q (i 1))
    (h : ∀ i, y i = ∑ q : Fin k, A (lidx i q) * B (ridx i q)) : y = Spec.mm A B := by
  funext i
  rw [h i]
  show _ = ∑ q : Fin k, A (ix2 (n0 := n) (n1 := k) (i 0) q) * B (ix2 (n0 := k) (n1 := p) q (i 1))
  exact Finset.sum_congr rfl fun q _ => by rw [hl i q, hr i q]

/-- A one-entry array broadcast in two steps (first to a `1 × 1` array, then to a full matrix) is the
    constant matrix whose every entry is that one entry. -/
theorem const_of_apply {s t : Shape} {x : (⟨1, ![1]⟩ : Shape).Idx → EReal} {z : t.Idx → EReal}
    {y : s.Idx → EReal} {f : s.Idx → t.Idx} {g : t.Idx → (⟨1, ![1]⟩ : Shape).Idx}
    (hy : ∀ i, y i = z (f i)) (hz : ∀ j, z j = x (g j)) (hg : ∀ j, g j = ix1 (0 : Fin 1)) :
    y = fun _ => x (ix1 (0 : Fin 1)) := by
  funext i
  rw [hy i, hz (f i), hg (f i)]

/-! ## The arguments

  Two feature matrices, four adjacencies, two projections, two decoders and four one-entry scalars. -/

variable (x0 x1 : (⟨S4096x128, .f32⟩ : BufTy).Contents (Elt Ideal))
  (x2 x3 x4 x5 : (⟨S4096x4096, .f32⟩ : BufTy).Contents (Elt Ideal))
  (x6 x7 : (⟨S128x32, .f32⟩ : BufTy).Contents (Elt Ideal))
  (x8 x9 : (⟨S32x128, .f32⟩ : BufTy).Contents (Elt Ideal))
  (x10 x11 x12 x13 : (⟨S1, .f32⟩ : BufTy).Contents (Elt Ideal))

/-! ## The projections `f · W` and their products with the adjacencies

  The program computes each projection twice (once per adjacency it is multiplied with); both copies are
  the same matrix product. -/

/-- Stage 0 is `f₁ · W₁`: entry `(r, c)` is the sum over the 128 features `q` of `f₁ (r, q) · W₁ (q, c)`. -/
theorem v0_eq : val_main_v0 (F := Ideal) x0 x6 = Spec.mm x0 x6 :=
  mm_of_apply (n := 4096) (k := 128) (p := 32) (lidx := lidx_main_v0) (ridx := ridx_main_v0)
    (fun i q => funext fun a => Fin.ext (by match a with | ⟨0, _⟩ => rfl | ⟨1, _⟩ => rfl))
    (fun i q => funext fun a => Fin.ext (by match a with | ⟨0, _⟩ => rfl | ⟨1, _⟩ => rfl))
    (val_main_v0_apply x0 x6)

/-- Stage 1 is `A₁ · (f₁ · W₁)`: entry `(r, c)` is the sum over the 4096 nodes `q` of `A₁ (r, q)` times the
    projection's entry `(q, c)`. -/
theorem v1_eq : val_main_v1 (F := Ideal) x0 x2 x6 = Spec.mm x2 (Spec.mm x0 x6) := by
  rw [← v0_eq x0 x6]
  exact mm_of_apply (n := 4096) (k := 4096) (p := 32) (lidx := lidx_main_v1) (ridx := ridx_main_v1)
    (fun i q => funext fun a => Fin.ext (by match a with | ⟨0, _⟩ => rfl | ⟨1, _⟩ => rfl))
    (fun i q => funext fun a => Fin.ext (by match a with | ⟨0, _⟩ => rfl | ⟨1, _⟩ => rfl))
    (val_main_v1_apply x0 x2 x6)

/-- Stage 2 is `f₂ · W₂`. -/
theorem v2_eq : val_main_v2 (F := Ideal) x1 x7 = Spec.mm x1 x7 :=
  mm_of_apply (n := 4096) (k := 128) (p := 32) (lidx := lidx_main_v2) (ridx := ridx_main_v2)
    (fun i q => funext fun a => Fin.ext (by match a with | ⟨0, _⟩ => rfl | ⟨1, _⟩ => rfl))
    (fun i q => funext fun a => Fin.ext (by match a with | ⟨0, _⟩ => rfl | ⟨1, _⟩ => rfl))
    (val_main_v2_apply x1 x7)

/-- Stage 3 is `A₂ · (f₂ · W₂)`. -/
theorem v3_eq : val_main_v3 (F := Ideal) x1 x4 x7 = Spec.mm x4 (Spec.mm x1 x7) := by
  rw [← v2_eq x1 x7]
  exact mm_of_apply (n := 4096) (k := 4096) (p := 32) (lidx := lidx_main_v3) (ridx := ridx_main_v3)
    (fun i q => funext fun a => Fin.ext (by match a with | ⟨0, _⟩ => rfl | ⟨1, _⟩ => rfl))
    (fun i q => funext fun a => Fin.ext (by match a with | ⟨0, _⟩ => rfl | ⟨1, _⟩ => rfl))
    (val_main_v3_apply x1 x4 x7)

/-- Stage 4 is `f₁ · W₁` again. -/
theorem v4_eq : val_main_v4 (F := Ideal) x0 x6 = Spec.mm x0 x6 :=
  mm_of_apply (n := 4096) (k := 128) (p := 32) (lidx := lidx_main_v4) (ridx := ridx_main_v4)
    (fun i q => funext fun a => Fin.ext (by match a with | ⟨0, _⟩ => rfl | ⟨1, _⟩ => rfl))
    (fun i q => funext fun a => Fin.ext (by match a with | ⟨0, _⟩ => rfl | ⟨1, _⟩ => rfl))
    (val_main_v4_apply x0 x6)

/-- Stage 5 is `A₁' · (f₁ · W₁)`, the first modality's second adjacency. -/
theorem v5_eq : val_main_v5 (F := Ideal) x0 x3 x6 = Spec.mm x3 (Spec.mm x0 x6) := by
  rw [← v4_eq x0 x6]
  exact mm_of_apply (n := 4096) (k := 4096) (p := 32) (lidx := lidx_main_v5) (ridx := ridx_main_v5)
    (fun i q => funext fun a => Fin.ext (by match a with | ⟨0, _⟩ => rfl | ⟨1, _⟩ => rfl))
    (fun i q => funext fun a => Fin.ext (by match a with | ⟨0, _⟩ => rfl | ⟨1, _⟩ => rfl))
    (val_main_v5_apply x0 x3 x6)

/-- Stage 6 is `f₂ · W₂` again. -/
theorem v6_eq : val_main_v6 (F := Ideal) x1 x7 = Spec.mm x1 x7 :=
  mm_of_apply (n := 4096) (k := 128) (p := 32) (lidx := lidx_main_v6) (ridx := ridx_main_v6)
    (fun i q => funext fun a => Fin.ext (by match a with | ⟨0, _⟩ => rfl | ⟨1, _⟩ => rfl))
    (fun i q => funext fun a => Fin.ext (by match a with | ⟨0, _⟩ => rfl | ⟨1, _⟩ => rfl))
    (val_main_v6_apply x1 x7)

/-- Stage 7 is `A₂' · (f₂ · W₂)`, the second modality's second adjacency. -/
theorem v7_eq : val_main_v7 (F := Ideal) x1 x5 x7 = Spec.mm x5 (Spec.mm x1 x7) := by
  rw [← v6_eq x1 x7]
  exact mm_of_apply (n := 4096) (k := 4096) (p := 32) (lidx := lidx_main_v7) (ridx := ridx_main_v7)
    (fun i q => funext fun a => Fin.ext (by match a with | ⟨0, _⟩ => rfl | ⟨1, _⟩ => rfl))
    (fun i q => funext fun a => Fin.ext (by match a with | ⟨0, _⟩ => rfl | ⟨1, _⟩ => rfl))
    (val_main_v7_apply x1 x5 x7)

/-! ## The four scalars, broadcast to full matrices -/

/-- Stage 9 is the constant matrix whose every entry is the scalar `w₁`. -/
theorem v9_eq : val_main_v9 (F := Ideal) x10 = fun _ => x10 (ix1 (0 : Fin 1)) :=
  const_of_apply (val_main_v9_apply (F := Ideal) x10) (val_main_v8_apply (F := Ideal) x10)
    (fun j => funext fun a => by match a with | ⟨0, _⟩ => rfl)

/-- Stage 12 is the constant matrix whose every entry is the scalar `w₁'`. -/
theorem v12_eq : val_main_v12 (F := Ideal) x12 = fun _ => x12 (ix1 (0 : Fin 1)) :=
  const_of_apply (val_main_v12_apply (F := Ideal) x12) (val_main_v11_apply (F := Ideal) x12)
    (fun j => funext fun a => by match a with | ⟨0, _⟩ => rfl)

/-- Stage 16 is the constant matrix whose every entry is the scalar `w₂`. -/
theorem v16_eq : val_main_v16 (F := Ideal) x11 = fun _ => x11 (ix1 (0 : Fin 1)) :=
  const_of_apply (val_main_v16_apply (F := Ideal) x11) (val_main_v15_apply (F := Ideal) x11)
    (fun j => funext fun a => by match a with | ⟨0, _⟩ => rfl)

/-- Stage 19 is the constant matrix whose every entry is the scalar `w₂'`. -/
theorem v19_eq : val_main_v19 (F := Ideal) x13 = fun _ => x13 (ix1 (0 : Fin 1)) :=
  const_of_apply (val_main_v19_apply (F := Ideal) x13) (val_main_v18_apply (F := Ideal) x13)
    (fun j => funext fun a => by match a with | ⟨0, _⟩ => rfl)

/-! ## The scaled products and the two latents -/

/-- Stage 10 is `w₁ · (A₁ · (f₁ · W₁))`, the scalar on the left of every entry. -/
theorem v10_eq : val_main_v10 (F := Ideal) x0 x2 x6 x10
    = Spec.scaleL (x10 (ix1 (0 : Fin 1))) (Spec.mm x2 (Spec.mm x0 x6)) := by
  funext i
  rw [val_main_v10_apply, v9_eq, v1_eq]
  rfl

/-- Stage 13 is `w₁' · (A₁' · (f₁ · W₁))`. -/
theorem v13_eq : val_main_v13 (F := Ideal) x0 x3 x6 x12
    = Spec.scaleL (x12 (ix1 (0 : Fin 1))) (Spec.mm x3 (Spec.mm x0 x6)) := by
  funext i
  rw [val_main_v13_apply, v12_eq, v5_eq]
  rfl

/-- Stage 17 is `w₂ · (A₂ · (f₂ · W₂))`. -/
theorem v17_eq : val_main_v17 (F := Ideal) x1 x4 x7 x11
    = Spec.scaleL (x11 (ix1 (0 : Fin 1))) (Spec.mm x4 (Spec.mm x1 x7)) := by
  funext i
  rw [val_main_v17_apply, v16_eq, v3_eq]
  rfl

/-- Stage 20 is `w₂' · (A₂' · (f₂ · W₂))`. -/
theorem v20_eq : val_main_v20 (F := Ideal) x1 x5 x7 x13
    = Spec.scaleL (x13 (ix1 (0 : Fin 1))) (Spec.mm x5 (Spec.mm x1 x7)) := by
  funext i
  rw [val_main_v20_apply, v19_eq, v7_eq]
  rfl

/-- The first latent: stage 14 is the entrywise sum of stages 10 and 13,
    `w₁ · (A₁ · (f₁ · W₁)) + w₁' · (A₁' · (f₁ · W₁))`. -/
theorem v14_eq : val_main_v14 (F := Ideal) x0 x2 x3 x6 x10 x12
    = Spec.rLat x2 x3 x0 x6 (x10 (ix1 (0 : Fin 1))) (x12 (ix1 (0 : Fin 1))) := by
  funext i
  rw [val_main_v14_apply, v10_eq, v13_eq]
  rfl

/-- The second latent: stage 21 is the entrywise sum of stages 17 and 20,
    `w₂ · (A₂ · (f₂ · W₂)) + w₂' · (A₂' · (f₂ · W₂))`. -/
theorem v21_eq : val_main_v21 (F := Ideal) x1 x4 x5 x7 x11 x13
    = Spec.rLat x4 x5 x1 x7 (x11 (ix1 (0 : Fin 1))) (x13 (ix1 (0 : Fin 1))) := by
  funext i
  rw [val_main_v21_apply, v17_eq, v20_eq]
  rfl

/-! ## The combined latent -/

/-- Stage 23 is the constant matrix whose every entry is the float `2.0`. -/
theorem v23_eq : val_main_v23 (F := Ideal) = fun _ => Spec.two := by
  funext i
  rw [val_main_v23_apply, val_main_cst_apply]
  rfl

/-- The combined latent: stage 24 divides the entrywise sum of the two latents by `2.0`, entry by entry. -/
theorem v24_eq : val_main_v24 (F := Ideal) x0 x1 x2 x3 x4 x5 x6 x7 x10 x11 x12 x13
    = Spec.rComb (Spec.rLat x2 x3 x0 x6 (x10 (ix1 (0 : Fin 1))) (x12 (ix1 (0 : Fin 1))))
        (Spec.rLat x4 x5 x1 x7 (x11 (ix1 (0 : Fin 1))) (x13 (ix1 (0 : Fin 1)))) := by
  funext i
  rw [val_main_v24_apply, val_main_v22_apply, v14_eq, v21_eq, v23_eq]
  rfl

/-! ## The two reconstructions -/

/-- Stage 25 is `combined · D₁`: entry `(r, c)` is the sum over the 32 latent coordinates `q` of
    `combined (r, q) · D₁ (q, c)`. -/
theorem v25_eq : val_main_v25 (F := Ideal) x0 x1 x2 x3 x4 x5 x6 x7 x8 x10 x11 x12 x13
    = Spec.mm (Spec.rComb (Spec.rLat x2 x3 x0 x6 (x10 (ix1 (0 : Fin 1))) (x12 (ix1 (0 : Fin 1))))
        (Spec.rLat x4 x5 x1 x7 (x11 (ix1 (0 : Fin 1))) (x13 (ix1 (0 : Fin 1))))) x8 := by
  rw [← v24_eq x0 x1 x2 x3 x4 x5 x6 x7 x10 x11 x12 x13]
  exact mm_of_apply (n := 4096) (k := 32) (p := 128) (lidx := lidx_main_v25) (ridx := ridx_main_v25)
    (fun i q => funext fun a => Fin.ext (by match a with | ⟨0, _⟩ => rfl | ⟨1, _⟩ => rfl))
    (fun i q => funext fun a => Fin.ext (by match a with | ⟨0, _⟩ => rfl | ⟨1, _⟩ => rfl))
    (val_main_v25_apply x0 x1 x2 x3 x4 x5 x6 x7 x8 x10 x11 x12 x13)

/-- The first reconstruction: stage 26 is `A₁ · (combined · D₁)`, the sum over the 4096 nodes `q` of
    `A₁ (r, q)` times entry `(q, c)` of stage 25. -/
theorem v26_eq : val_main_v26 (F := Ideal) x0 x1 x2 x3 x4 x5 x6 x7 x8 x10 x11 x12 x13
    = Spec.rRec x2 (Spec.rComb (Spec.rLat x2 x3 x0 x6 (x10 (ix1 (0 : Fin 1))) (x12 (ix1 (0 : Fin 1))))
        (Spec.rLat x4 x5 x1 x7 (x11 (ix1 (0 : Fin 1))) (x13 (ix1 (0 : Fin 1))))) x8 := by
  unfold Spec.rRec
  rw [← v25_eq x0 x1 x2 x3 x4 x5 x6 x7 x8 x10 x11 x12 x13]
  exact mm_of_apply (n := 4096) (k := 4096) (p := 128) (lidx := lidx_main_v26) (ridx := ridx_main_v26)
    (fun i q => funext fun a => Fin.ext (by match a with | ⟨0, _⟩ => rfl | ⟨1, _⟩ => rfl))
    (fun i q => funext fun a => Fin.ext (by match a with | ⟨0, _⟩ => rfl | ⟨1, _⟩ => rfl))
    (val_main_v26_apply x0 x1 x2 x3 x4 x5 x6 x7 x8 x10 x11 x12 x13)

/-- Stage 27 is `combined · D₂`. -/
theorem v27_eq : val_main_v27 (F := Ideal) x0 x1 x2 x3 x4 x5 x6 x7 x9 x10 x11 x12 x13
    = Spec.mm (Spec.rComb (Spec.rLat x2 x3 x0 x6 (x10 (ix1 (0 : Fin 1))) (x12 (ix1 (0 : Fin 1))))
        (Spec.rLat x4 x5 x1 x7 (x11 (ix1 (0 : Fin 1))) (x13 (ix1 (0 : Fin 1))))) x9 := by
  rw [← v24_eq x0 x1 x2 x3 x4 x5 x6 x7 x10 x11 x12 x13]
  exact mm_of_apply (n := 4096) (k := 32) (p := 128) (lidx := lidx_main_v27) (ridx := ridx_main_v27)
    (fun i q => funext fun a => Fin.ext (by match a with | ⟨0, _⟩ => rfl | ⟨1, _⟩ => rfl))
    (fun i q => funext fun a => Fin.ext (by match a with | ⟨0, _⟩ => rfl | ⟨1, _⟩ => rfl))
    (val_main_v27_apply x0 x1 x2 x3 x4 x5 x6 x7 x9 x10 x11 x12 x13)

/-- The second reconstruction: stage 28 is `A₂ · (combined · D₂)`. -/
theorem v28_eq : val_main_v28 (F := Ideal) x0 x1 x2 x3 x4 x5 x6 x7 x9 x10 x11 x12 x13
    = Spec.rRec x4 (Spec.rComb (Spec.rLat x2 x3 x0 x6 (x10 (ix1 (0 : Fin 1))) (x12 (ix1 (0 : Fin 1))))
        (Spec.rLat x4 x5 x1 x7 (x11 (ix1 (0 : Fin 1))) (x13 (ix1 (0 : Fin 1))))) x9 := by
  unfold Spec.rRec
  rw [← v27_eq x0 x1 x2 x3 x4 x5 x6 x7 x9 x10 x11 x12 x13]
  exact mm_of_apply (n := 4096) (k := 4096) (p := 128) (lidx := lidx_main_v28) (ridx := ridx_main_v28)
    (fun i q => funext fun a => Fin.ext (by match a with | ⟨0, _⟩ => rfl | ⟨1, _⟩ => rfl))
    (fun i q => funext fun a => Fin.ext (by match a with | ⟨0, _⟩ => rfl | ⟨1, _⟩ => rfl))
    (val_main_v28_apply x0 x1 x2 x3 x4 x5 x6 x7 x9 x10 x11 x12 x13)

end Cert.RefSpec

end
-- ==== Proof.KernelRun.lean ====
/-
  The idealized kernel's run with its result arrays named.

  @main is a stretch of four host reshapes followed by three kernel launches. Every weakly fair execution
  terminates without a fault, and in the final state every buffer that outlives a launch holds the contents
  `W4`: the fold, through the four segments, of "the host operations' results" and "each launch's arrays as its
  write-backs leave them". The first theorem states that for every such buffer at once; the second reads it
  at the five result arrays and at the fourteen argument arrays (which no segment writes).
-/
import proofs.«110364_g68247030333984_cont_9to1_m_654_3_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every buffer that outlives a launch ends
    at the last boundary's contents `W4`. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run read at the five result arrays (each at `W4`) and at the fourteen arguments (unchanged). -/
theorem run_named : θ_run defs (onTc (τ := τ) (main (F := F))) ⟨m, fun _ => 0, ρ⟩ (fun r => ∀ c : Dev nD,
      r.2.mem ((c.tc : Thread nD τ).loc main_v5_0) = W4 m ρ c (Proc.devRef .tc main_v5_0)
      ∧       r.2.mem ((c.tc : Thread nD τ).loc main_v5_1) = W4 m ρ c (Proc.devRef .tc main_v5_1)
      ∧       r.2.mem ((c.tc : Thread nD τ).loc main_v5_2) = W4 m ρ c (Proc.devRef .tc main_v5_2)
      ∧       r.2.mem ((c.tc : Thread nD τ).loc main_v6_0) = W4 m ρ c (Proc.devRef .tc main_v6_0)
      ∧       r.2.mem ((c.tc : Thread nD τ).loc main_v6_1) = W4 m ρ c (Proc.devRef .tc main_v6_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v5_0 (by decide)),
     h c _ (mem_uc main_v5_1 (by decide)),
     h c _ (mem_uc main_v5_2 (by decide)),
     h c _ (mem_uc main_v6_0 (by decide)),
     h c _ (mem_uc main_v6_1 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c)⟩)
    (run_held m ρ)

end Cert.KernelIdeal.Run

end
-- ==== Proof.MatmulAt.lean ====
/-
  The kernel's matrix products read at an index.

  Every `tpu.matmul` of the three kernel bodies contracts the second axis of its left operand with the first axis of
  its right operand and adds into a zero accumulator. At the ideal instance such a product is, entry by entry, the
  plain sum over the contracted position of the products of the operands' entries: the specification's `mm`. One
  lemma per pair of operand shapes; each re-indexes the sum over the contraction's one-axis index type by
  `Fin K` and identifies the two operand indices with `(j₀, k)` and `(k, j₁)`.
-/
import proofs.«110364_g68247030333984_cont_9to1_m_654_3_alg».proof.Proof.Gen.KernelIdeal
import proofs.«110364_g68247030333984_cont_9to1_m_654_3_alg».proof.Proof.Spec
import Idealize.ShloMosaic.Lib.ValueIdx
import Idealize.ShloMosaic.PureOps.Ideal.Laws

noncomputable section

namespace Cert.KernelIdeal.At

open Cert.KernelIdeal Cert.KernelIdeal.Gen Idealize.ShloMosaic

/-- A `4096×128` by `128×32` product into a zero accumulator: entry `j` is the sum over the 128 contracted
    positions `k` of `x (j₀, k) · y (k, j₁)`. -/
theorem matmul_4096x128_128x32 (x : FVec Ideal S4096x128 .f32) (y : FVec Ideal S128x32 .f32) (j : S4096x32.Idx) :
    matmul (F := Ideal) dot_S4096x128_S128x32_S4096x32_1_0_0_1_n_n none x y (constant S4096x32 .f32 0x00000000#32) j = Cert.Spec.mm x y j := by
  unfold Cert.Spec.mm
  simp only [matmul]
  rw [Ideal.matmul_constant_zero_apply, ← Equiv.sum_comp (ValueIdx.contrEquiv1 dot_S4096x128_S128x32_S4096x32_1_0_0_1_n_n 128 rfl rfl).symm]
  refine Finset.sum_congr rfl fun k _ => ?_
  have hk := ValueIdx.contrEquiv1_symm_val dot_S4096x128_S128x32_S4096x32_1_0_0_1_n_n 128 rfl rfl k
  have el : dot_S4096x128_S128x32_S4096x32_1_0_0_1_n_n.lhsIdx j ((ValueIdx.contrEquiv1 dot_S4096x128_S128x32_S4096x32_1_0_0_1_n_n 128 rfl rfl).symm k)
      = ValueIdx.ix2 (n0 := 4096) (n1 := 128) (j 0) k := funext fun a => Fin.ext (by
    match a with
    | ⟨0, _⟩ =>
      show (dot_S4096x128_S128x32_S4096x32_1_0_0_1_n_n.lhsIdx j _ 0).val = (j 0).val
      unfold DotDims.lhsIdx
      rw [dif_neg (show ¬(0 : Fin S4096x128.rank) ∈ dot_S4096x128_S128x32_S4096x32_1_0_0_1_n_n.lhsBatch by decide), dif_pos (show (0 : Fin S4096x128.rank) ∈ dot_S4096x128_S128x32_S4096x32_1_0_0_1_n_n.lhsNonContracting by decide)]
      rfl
    | ⟨1, _⟩ => exact (dot_S4096x128_S128x32_S4096x32_1_0_0_1_n_n.lhsIdx_val_of_single rfl j _).trans hk)
  have er : dot_S4096x128_S128x32_S4096x32_1_0_0_1_n_n.rhsIdx j ((ValueIdx.contrEquiv1 dot_S4096x128_S128x32_S4096x32_1_0_0_1_n_n 128 rfl rfl).symm k)
      = ValueIdx.ix2 (n0 := 128) (n1 := 32) k (j 1) := funext fun a => Fin.ext (by
    match a with
    | ⟨0, _⟩ => exact (dot_S4096x128_S128x32_S4096x32_1_0_0_1_n_n.rhsIdx_val_of_single rfl j _).trans hk
    | ⟨1, _⟩ =>
      show (dot_S4096x128_S128x32_S4096x32_1_0_0_1_n_n.rhsIdx j _ 1).val = (j 1).val
      unfold DotDims.rhsIdx
      rw [dif_neg (show ¬(1 : Fin S128x32.rank) ∈ dot_S4096x128_S128x32_S4096x32_1_0_0_1_n_n.rhsBatch by decide), dif_pos (show (1 : Fin S128x32.rank) ∈ dot_S4096x128_S128x32_S4096x32_1_0_0_1_n_n.rhsNonContracting by decide)]
      rfl)
  rw [el, er]

/-- A `256×4096` by `4096×32` product into a zero accumulator: entry `j` is the sum over the 4096 contracted
    positions `k` of `x (j₀, k) · y (k, j₁)`. -/
theorem matmul_256x4096_4096x32 (x : FVec Ideal S256x4096 .f32) (y : FVec Ideal S4096x32 .f32) (j : S256x32.Idx) :
    matmul (F := Ideal) dot_S256x4096_S4096x32_S256x32_1_0_0_1_n_n none x y (constant S256x32 .f32 0x00000000#32) j = Cert.Spec.mm x y j := by
  unfold Cert.Spec.mm
  simp only [matmul]
  rw [Ideal.matmul_constant_zero_apply, ← Equiv.sum_comp (ValueIdx.contrEquiv1 dot_S256x4096_S4096x32_S256x32_1_0_0_1_n_n 4096 rfl rfl).symm]
  refine Finset.sum_congr rfl fun k _ => ?_
  have hk := ValueIdx.contrEquiv1_symm_val dot_S256x4096_S4096x32_S256x32_1_0_0_1_n_n 4096 rfl rfl k
  have el : dot_S256x4096_S4096x32_S256x32_1_0_0_1_n_n.lhsIdx j ((ValueIdx.contrEquiv1 dot_S256x4096_S4096x32_S256x32_1_0_0_1_n_n 4096 rfl rfl).symm k)
      = ValueIdx.ix2 (n0 := 256) (n1 := 4096) (j 0) k := funext fun a => Fin.ext (by
    match a with
    | ⟨0, _⟩ =>
      show (dot_S256x4096_S4096x32_S256x32_1_0_0_1_n_n.lhsIdx j _ 0).val = (j 0).val
      unfold DotDims.lhsIdx
      rw [dif_neg (show ¬(0 : Fin S256x4096.rank) ∈ dot_S256x4096_S4096x32_S256x32_1_0_0_1_n_n.lhsBatch by decide), dif_pos (show (0 : Fin S256x4096.rank) ∈ dot_S256x4096_S4096x32_S256x32_1_0_0_1_n_n.lhsNonContracting by decide)]
      rfl
    | ⟨1, _⟩ => exact (dot_S256x4096_S4096x32_S256x32_1_0_0_1_n_n.lhsIdx_val_of_single rfl j _).trans hk)
  have er : dot_S256x4096_S4096x32_S256x32_1_0_0_1_n_n.rhsIdx j ((ValueIdx.contrEquiv1 dot_S256x4096_S4096x32_S256x32_1_0_0_1_n_n 4096 rfl rfl).symm k)
      = ValueIdx.ix2 (n0 := 4096) (n1 := 32) k (j 1) := funext fun a => Fin.ext (by
    match a with
    | ⟨0, _⟩ => exact (dot_S256x4096_S4096x32_S256x32_1_0_0_1_n_n.rhsIdx_val_of_single rfl j _).trans hk
    | ⟨1, _⟩ =>
      show (dot_S256x4096_S4096x32_S256x32_1_0_0_1_n_n.rhsIdx j _ 1).val = (j 1).val
      unfold DotDims.rhsIdx
      rw [dif_neg (show ¬(1 : Fin S4096x32.rank) ∈ dot_S256x4096_S4096x32_S256x32_1_0_0_1_n_n.rhsBatch by decide), dif_pos (show (1 : Fin S4096x32.rank) ∈ dot_S256x4096_S4096x32_S256x32_1_0_0_1_n_n.rhsNonContracting by decide)]
      rfl)
  rw [el, er]

/-- A `512×4096` by `4096×32` product into a zero accumulator: entry `j` is the sum over the 4096 contracted
    positions `k` of `x (j₀, k) · y (k, j₁)`. -/
theorem matmul_512x4096_4096x32 (x : FVec Ideal S512x4096 .f32) (y : FVec Ideal S4096x32 .f32) (j : S512x32.Idx) :
    matmul (F := Ideal) dot_S512x4096_S4096x32_S512x32_1_0_0_1_n_n none x y (constant S512x32 .f32 0x00000000#32) j = Cert.Spec.mm x y j := by
  unfold Cert.Spec.mm
  simp only [matmul]
  rw [Ideal.matmul_constant_zero_apply, ← Equiv.sum_comp (ValueIdx.contrEquiv1 dot_S512x4096_S4096x32_S512x32_1_0_0_1_n_n 4096 rfl rfl).symm]
  refine Finset.sum_congr rfl fun k _ => ?_
  have hk := ValueIdx.contrEquiv1_symm_val dot_S512x4096_S4096x32_S512x32_1_0_0_1_n_n 4096 rfl rfl k
  have el : dot_S512x4096_S4096x32_S512x32_1_0_0_1_n_n.lhsIdx j ((ValueIdx.contrEquiv1 dot_S512x4096_S4096x32_S512x32_1_0_0_1_n_n 4096 rfl rfl).symm k)
      = ValueIdx.ix2 (n0 := 512) (n1 := 4096) (j 0) k := funext fun a => Fin.ext (by
    match a with
    | ⟨0, _⟩ =>
      show (dot_S512x4096_S4096x32_S512x32_1_0_0_1_n_n.lhsIdx j _ 0).val = (j 0).val
      unfold DotDims.lhsIdx
      rw [dif_neg (show ¬(0 : Fin S512x4096.rank) ∈ dot_S512x4096_S4096x32_S512x32_1_0_0_1_n_n.lhsBatch by decide), dif_pos (show (0 : Fin S512x4096.rank) ∈ dot_S512x4096_S4096x32_S512x32_1_0_0_1_n_n.lhsNonContracting by decide)]
      rfl
    | ⟨1, _⟩ => exact (dot_S512x4096_S4096x32_S512x32_1_0_0_1_n_n.lhsIdx_val_of_single rfl j _).trans hk)
  have er : dot_S512x4096_S4096x32_S512x32_1_0_0_1_n_n.rhsIdx j ((ValueIdx.contrEquiv1 dot_S512x4096_S4096x32_S512x32_1_0_0_1_n_n 4096 rfl rfl).symm k)
      = ValueIdx.ix2 (n0 := 4096) (n1 := 32) k (j 1) := funext fun a => Fin.ext (by
    match a with
    | ⟨0, _⟩ => exact (dot_S512x4096_S4096x32_S512x32_1_0_0_1_n_n.rhsIdx_val_of_single rfl j _).trans hk
    | ⟨1, _⟩ =>
      show (dot_S512x4096_S4096x32_S512x32_1_0_0_1_n_n.rhsIdx j _ 1).val = (j 1).val
      unfold DotDims.rhsIdx
      rw [dif_neg (show ¬(1 : Fin S4096x32.rank) ∈ dot_S512x4096_S4096x32_S512x32_1_0_0_1_n_n.rhsBatch by decide), dif_pos (show (1 : Fin S4096x32.rank) ∈ dot_S512x4096_S4096x32_S512x32_1_0_0_1_n_n.rhsNonContracting by decide)]
      rfl)
  rw [el, er]

/-- A `512×32` by `32×128` product into a zero accumulator: entry `j` is the sum over the 32 contracted
    positions `k` of `x (j₀, k) · y (k, j₁)`. -/
theorem matmul_512x32_32x128 (x : FVec Ideal S512x32 .f32) (y : FVec Ideal S32x128 .f32) (j : S512x128.Idx) :
    matmul (F := Ideal) dot_S512x32_S32x128_S512x128_1_0_0_1_n_n none x y (constant S512x128 .f32 0x00000000#32) j = Cert.Spec.mm x y j := by
  unfold Cert.Spec.mm
  simp only [matmul]
  rw [Ideal.matmul_constant_zero_apply, ← Equiv.sum_comp (ValueIdx.contrEquiv1 dot_S512x32_S32x128_S512x128_1_0_0_1_n_n 32 rfl rfl).symm]
  refine Finset.sum_congr rfl fun k _ => ?_
  have hk := ValueIdx.contrEquiv1_symm_val dot_S512x32_S32x128_S512x128_1_0_0_1_n_n 32 rfl rfl k
  have el : dot_S512x32_S32x128_S512x128_1_0_0_1_n_n.lhsIdx j ((ValueIdx.contrEquiv1 dot_S512x32_S32x128_S512x128_1_0_0_1_n_n 32 rfl rfl).symm k)
      = ValueIdx.ix2 (n0 := 512) (n1 := 32) (j 0) k := funext fun a => Fin.ext (by
    match a with
    | ⟨0, _⟩ =>
      show (dot_S512x32_S32x128_S512x128_1_0_0_1_n_n.lhsIdx j _ 0).val = (j 0).val
      unfold DotDims.lhsIdx
      rw [dif_neg (show ¬(0 : Fin S512x32.rank) ∈ dot_S512x32_S32x128_S512x128_1_0_0_1_n_n.lhsBatch by decide), dif_pos (show (0 : Fin S512x32.rank) ∈ dot_S512x32_S32x128_S512x128_1_0_0_1_n_n.lhsNonContracting by decide)]
      rfl
    | ⟨1, _⟩ => exact (dot_S512x32_S32x128_S512x128_1_0_0_1_n_n.lhsIdx_val_of_single rfl j _).trans hk)
  have er : dot_S512x32_S32x128_S512x128_1_0_0_1_n_n.rhsIdx j ((ValueIdx.contrEquiv1 dot_S512x32_S32x128_S512x128_1_0_0_1_n_n 32 rfl rfl).symm k)
      = ValueIdx.ix2 (n0 := 32) (n1 := 128) k (j 1) := funext fun a => Fin.ext (by
    match a with
    | ⟨0, _⟩ => exact (dot_S512x32_S32x128_S512x128_1_0_0_1_n_n.rhsIdx_val_of_single rfl j _).trans hk
    | ⟨1, _⟩ =>
      show (dot_S512x32_S32x128_S512x128_1_0_0_1_n_n.rhsIdx j _ 1).val = (j 1).val
      unfold DotDims.rhsIdx
      rw [dif_neg (show ¬(1 : Fin S32x128.rank) ∈ dot_S512x32_S32x128_S512x128_1_0_0_1_n_n.rhsBatch by decide), dif_pos (show (1 : Fin S32x128.rank) ∈ dot_S512x32_S32x128_S512x128_1_0_0_1_n_n.rhsNonContracting by decide)]
      rfl)
  rw [el, er]

end Cert.KernelIdeal.At

end
-- ==== Proof.Region0.lean ====
/-
  The first launch (no grid: one point), as values.

  The launch stages the two feature matrices (`4096 × 128`), the two projection matrices (`128 × 32`) and the four scalars
  (each as a `1 × 1` array) whole, and writes back four whole `4096 × 32` arrays: the projected features `f·W` of each
  modality multiplied, entry by entry, by each of its two scalars. Each block is the whole array, so a staged block reads
  its array at the same index, and after the launch each output array is `(f·W)·w` of the launch's input arrays.
  Everything is stated for arbitrary contents `V` of the buffers at the launch's entry.
-/
import proofs.«110364_g68247030333984_cont_9to1_m_654_3_alg».proof.Proof.Gen.KernelIdeal.Frame
import proofs.«110364_g68247030333984_cont_9to1_m_654_3_alg».proof.Proof.MatmulAt
import proofs.«110364_g68247030333984_cont_9to1_m_654_3_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.At Cert.Spec
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## A block's entries from the arrays' entries -/

/-- The scalar extracted at position `(0, 0)` of a `1 × 1` array is its one entry. -/
theorem extract_eq (s : Vec Ideal S1x1 .f32) (h : ∀ a, (![0, 0] : Fin 2 → Nat) a < S1x1.size a) :
    extractAt ![0, 0] s h = s (ix2 (n0 := 1) (n1 := 1) 0 0) := by
  unfold extractAt
  exact congrArg s (funext fun a => Fin.ext (by match a with | ⟨0, _⟩ => rfl | ⟨1, _⟩ => rfl))

/-- The payload is the product `x·y` with every entry multiplied by the one entry of `s`. -/
theorem pay3_eq (x : Vec Ideal S4096x128 .f32) (y : Vec Ideal S128x32 .f32) (s : Vec Ideal S1x1 .f32) (j : S4096x32.Idx) :
    k0_pay3 (F := Ideal) x y s j = mm x y j * s (ix2 (n0 := 1) (n1 := 1) 0 0) := by
  unfold k0_pay3 k0_pay1
  simp only [mulf_apply, broadcast_apply, matmul_4096x128_128x32]
  exact congrArg (fun z => mm x y j * z) (extract_eq s inpos_S1x1_p0_0)

/-- The payload is the product `x·y` with every entry multiplied by the one entry of `s`. -/
theorem pay4_eq (x : Vec Ideal S4096x128 .f32) (y : Vec Ideal S128x32 .f32) (s : Vec Ideal S1x1 .f32) (j : S4096x32.Idx) :
    k0_pay4 (F := Ideal) x y s j = mm x y j * s (ix2 (n0 := 1) (n1 := 1) 0 0) := by
  unfold k0_pay4 k0_pay1
  simp only [mulf_apply, broadcast_apply, matmul_4096x128_128x32]
  exact congrArg (fun z => mm x y j * z) (extract_eq s inpos_S1x1_p0_0)

/-- The payload is the product `x·y` with every entry multiplied by the one entry of `s`. -/
theorem pay5_eq (x : Vec Ideal S4096x128 .f32) (y : Vec Ideal S128x32 .f32) (s : Vec Ideal S1x1 .f32) (j : S4096x32.Idx) :
    k0_pay5 (F := Ideal) x y s j = mm x y j * s (ix2 (n0 := 1) (n1 := 1) 0 0) := by
  unfold k0_pay5 k0_pay2
  simp only [mulf_apply, broadcast_apply, matmul_4096x128_128x32]
  exact congrArg (fun z => mm x y j * z) (extract_eq s inpos_S1x1_p0_0)

/-- The payload is the product `x·y` with every entry multiplied by the one entry of `s`. -/
theorem pay6_eq (x : Vec Ideal S4096x128 .f32) (y : Vec Ideal S128x32 .f32) (s : Vec Ideal S1x1 .f32) (j : S4096x32.Idx) :
    k0_pay6 (F := Ideal) x y s j = mm x y j * s (ix2 (n0 := 1) (n1 := 1) 0 0) := by
  unfold k0_pay6 k0_pay2
  simp only [mulf_apply, broadcast_apply, matmul_4096x128_128x32]
  exact congrArg (fun z => mm x y j * z) (extract_eq s inpos_S1x1_p0_0)

/-- A scaled projection's block: entry `j` of `(x₀·x₂)·s`, when row `j₀` of the staged features is row `i₀` of the feature
    matrix, column `j₁` of the staged projection is column `i₁` of the projection matrix and the staged scalar is `w`, is entry
    `i` of `(f·W)·w`. -/
theorem proj_block (pay : Vec Ideal S4096x128 .f32 → Vec Ideal S128x32 .f32 → Vec Ideal S1x1 .f32 → FVec Ideal S4096x32 .f32)
    (hpay : ∀ x y s j, pay x y s j = mm x y j * s (ix2 (n0 := 1) (n1 := 1) 0 0))
    (f : Mat 4096 128) (W : Mat 128 32) (w : EReal)
    (x0 : Vec Ideal S4096x128 .f32) (x2 : Vec Ideal S128x32 .f32) (x4 : Vec Ideal S1x1 .f32) (j : S4096x32.Idx) (i : S4096x32.Idx)
    (h0 : ∀ k : Fin 128, x0 (ix2 (n0 := 4096) (n1 := 128) (j 0) k) = f (ix2 (n0 := 4096) (n1 := 128) (i 0) k))
    (h2 : ∀ k : Fin 128, x2 (ix2 (n0 := 128) (n1 := 32) k (j 1)) = W (ix2 (n0 := 128) (n1 := 32) k (i 1)))
    (h4 : x4 (ix2 (n0 := 1) (n1 := 1) 0 0) = w) :
    pay x0 x2 x4 j = kProj f W w i := by
  rw [hpay, h4]
  unfold kProj scaleR mm
  simp only [h0, h2]

/-! ## From the block to the array -/

variable (V : (c : Dev nD) → (b : Ref sig .tc) → Buf (Elt Ideal) ((c : Thread nD τ).loc b))

/-- The index maps at the one point: every window's block is block `(0, 0)`. -/
theorem idx_facts : ∀ t : Fin cfg0.N,
      win0_0.index t (0 : Fin 2) = 0 ∧ win0_0.index t (1 : Fin 2) = 0 ∧
      win0_1.index t (0 : Fin 2) = 0 ∧ win0_1.index t (1 : Fin 2) = 0 ∧
      win0_2.index t (0 : Fin 2) = 0 ∧ win0_2.index t (1 : Fin 2) = 0 ∧
      win0_3.index t (0 : Fin 2) = 0 ∧ win0_3.index t (1 : Fin 2) = 0 ∧
      win0_4.index t (0 : Fin 2) = 0 ∧ win0_4.index t (1 : Fin 2) = 0 ∧
      win0_5.index t (0 : Fin 2) = 0 ∧ win0_5.index t (1 : Fin 2) = 0 ∧
      win0_6.index t (0 : Fin 2) = 0 ∧ win0_6.index t (1 : Fin 2) = 0 ∧
      win0_7.index t (0 : Fin 2) = 0 ∧ win0_7.index t (1 : Fin 2) = 0 ∧
      win0_8.index t (0 : Fin 2) = 0 ∧ win0_8.index t (1 : Fin 2) = 0 ∧
      win0_9.index t (0 : Fin 2) = 0 ∧ win0_9.index t (1 : Fin 2) = 0 ∧
      win0_10.index t (0 : Fin 2) = 0 ∧ win0_10.index t (1 : Fin 2) = 0 ∧
      win0_11.index t (0 : Fin 2) = 0 ∧ win0_11.index t (1 : Fin 2) = 0 :=
  (by decide +kernel : ∀ t : Fin grid0.N, _)

/-- What the one point writes back through output window 8 is `(f·W)·w` of the launch's input arrays, `w` the one entry of
    the `1 × 1` operand. -/
theorem flushed8 (c : Dev nD) (t : Fin cfg0.N) :
    (dat0 V c).flushed 8 t = ((cfg0.win 8).blk t).view.read (Elt Ideal)
      (kProj (V c main_arg0) (V c main_arg6) (V c main_v0 (ix2 (n0 := 1) (n1 := 1) 0 0))) := by
  show (cfg0.win 8).cut (grid0.coords t) ((dat0 V c).after 8 t) = _
  rw [after0_8]
  unfold out0_8
  rw [View.canon_unit_zero hz]
  simp only [View.ld_unit_zero (S := S4096x128) hz, View.ld_unit_zero (S := S128x32) hz, View.ld_unit_zero (S := S1x1) hz]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext j
  show k0_pay3 (F := Ideal) (iblk0 V c 0 t) (iblk0 V c 2 t) (iblk0 V c 4 t) j
      = kProj (V c main_arg0) (V c main_arg6) (V c main_v0 (ix2 (n0 := 1) (n1 := 1) 0 0)) (((cfg0.win 8).blk t).view.emb j)
  refine proj_block (k0_pay3 (F := Ideal)) pay3_eq (V c main_arg0) (V c main_arg6) (V c main_v0 (ix2 (n0 := 1) (n1 := 1) 0 0))
    (iblk0 V c 0 t) (iblk0 V c 2 t) (iblk0 V c 4 t) j (((cfg0.win 8).blk t).view.emb j)
    (fun k => ?_) (fun k => ?_) ?_
  · show V c main_arg0 (((cfg0.win 0).blk t).view.emb (ix2 (n0 := 4096) (n1 := 128) (j 0) k))
        = V c main_arg0 (ix2 (n0 := 4096) (n1 := 128) ((((cfg0.win 8).blk t).view.emb j) 0) k)
    refine congrArg (V c main_arg0) ?_
    funext a; apply Fin.ext
    match a with
    | ⟨0, _⟩ => show win0_0.index t (0 : Fin 2) * 4096 + 1 * (j 0).val = win0_8.index t (0 : Fin 2) * 4096 + 1 * (j 0).val; omega
    | ⟨1, _⟩ => show win0_0.index t (1 : Fin 2) * 128 + 1 * k.val = k.val; omega
  · show V c main_arg6 (((cfg0.win 2).blk t).view.emb (ix2 (n0 := 128) (n1 := 32) k (j 1)))
        = V c main_arg6 (ix2 (n0 := 128) (n1 := 32) k ((((cfg0.win 8).blk t).view.emb j) 1))
    refine congrArg (V c main_arg6) ?_
    funext a; apply Fin.ext
    match a with
    | ⟨0, _⟩ => show win0_2.index t (0 : Fin 2) * 128 + 1 * k.val = k.val; omega
    | ⟨1, _⟩ => show win0_2.index t (1 : Fin 2) * 32 + 1 * (j 1).val = win0_8.index t (1 : Fin 2) * 32 + 1 * (j 1).val; omega
  · show V c main_v0 (((cfg0.win 4).blk t).view.emb (ix2 (n0 := 1) (n1 := 1) 0 0))
        = V c main_v0 (ix2 (n0 := 1) (n1 := 1) 0 0)
    refine congrArg (V c main_v0) ?_
    funext a; apply Fin.ext
    match a with
    | ⟨0, _⟩ => show win0_4.index t (0 : Fin 2) * 1 + 1 * 0 = 0; omega
    | ⟨1, _⟩ => show win0_4.index t (1 : Fin 2) * 1 + 1 * 0 = 0; omega

/-- An index of the array is in the one point's block of window 8 iff each coordinate is in the block's range on its axis. -/
theorem mem_blk8 (t : Fin cfg0.N) (i : S4096x32.Idx) :
    i ∈ ((cfg0.win 8).blk t).view.set ↔ ∀ a : Fin 2, win0_8.index t a * S4096x32.size a ≤ (i a).val ∧ (i a).val < win0_8.index t a * S4096x32.size a + S4096x32.size a := by
  show i ∈ ((View.whole main_v4_0).slice (win0_8.rect t)).set ↔ _
  rw [View.set_slice_whole, Rect.mem_set_unit]
  exact Iff.rfl

/-- The one block of window 8 is the whole array. -/
theorem cover8 (i : S4096x32.Idx) : ∃ t : Fin cfg0.N, (cfg0.win 8).flush t = true ∧ i ∈ ((cfg0.win 8).blk t).view.set := by
  have hi0 : (i 0).val < 4096 := (i 0).isLt
  have hi1 : (i 1).val < 32 := (i 1).isLt
  refine ⟨t0_0, flush0_8 t0_0, ?_⟩
  rw [mem_blk8]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t0_0
  intro a
  match a with
  | ⟨0, _⟩ => show win0_8.index t0_0 (0 : Fin 2) * 4096 ≤ (i 0).val ∧ (i 0).val < win0_8.index t0_0 (0 : Fin 2) * 4096 + 4096; omega
  | ⟨1, _⟩ => show win0_8.index t0_0 (1 : Fin 2) * 32 ≤ (i 1).val ∧ (i 1).val < win0_8.index t0_0 (1 : Fin 2) * 32 + 32; omega

/-- After the launch the array of output window 8 is `(f·W)·w` of the launch's input arrays. -/
theorem final8 (c : Dev nD) :
    (dat0 V c).arrAt 8 cfg0.N = kProj (V c main_arg0) (V c main_arg6) (V c main_v0 (ix2 (n0 := 1) (n1 := 1) 0 0)) :=
  (dat0 V c).arrAt_eq_of_cover 8 _ (fun t _ => flushed8 V c t) cover8

/-- What the one point writes back through output window 9 is `(f·W)·w` of the launch's input arrays, `w` the one entry of
    the `1 × 1` operand. -/
theorem flushed9 (c : Dev nD) (t : Fin cfg0.N) :
    (dat0 V c).flushed 9 t = ((cfg0.win 9).blk t).view.read (Elt Ideal)
      (kProj (V c main_arg0) (V c main_arg6) (V c main_v1 (ix2 (n0 := 1) (n1 := 1) 0 0))) := by
  show (cfg0.win 9).cut (grid0.coords t) ((dat0 V c).after 9 t) = _
  rw [after0_9]
  unfold out0_9
  rw [View.canon_unit_zero hz]
  simp only [View.ld_unit_zero (S := S4096x128) hz, View.ld_unit_zero (S := S128x32) hz, View.ld_unit_zero (S := S1x1) hz]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext j
  show k0_pay4 (F := Ideal) (iblk0 V c 0 t) (iblk0 V c 2 t) (iblk0 V c 5 t) j
      = kProj (V c main_arg0) (V c main_arg6) (V c main_v1 (ix2 (n0 := 1) (n1 := 1) 0 0)) (((cfg0.win 9).blk t).view.emb j)
  refine proj_block (k0_pay4 (F := Ideal)) pay4_eq (V c main_arg0) (V c main_arg6) (V c main_v1 (ix2 (n0 := 1) (n1 := 1) 0 0))
    (iblk0 V c 0 t) (iblk0 V c 2 t) (iblk0 V c 5 t) j (((cfg0.win 9).blk t).view.emb j)
    (fun k => ?_) (fun k => ?_) ?_
  · show V c main_arg0 (((cfg0.win 0).blk t).view.emb (ix2 (n0 := 4096) (n1 := 128) (j 0) k))
        = V c main_arg0 (ix2 (n0 := 4096) (n1 := 128) ((((cfg0.win 9).blk t).view.emb j) 0) k)
    refine congrArg (V c main_arg0) ?_
    funext a; apply Fin.ext
    match a with
    | ⟨0, _⟩ => show win0_0.index t (0 : Fin 2) * 4096 + 1 * (j 0).val = win0_9.index t (0 : Fin 2) * 4096 + 1 * (j 0).val; omega
    | ⟨1, _⟩ => show win0_0.index t (1 : Fin 2) * 128 + 1 * k.val = k.val; omega
  · show V c main_arg6 (((cfg0.win 2).blk t).view.emb (ix2 (n0 := 128) (n1 := 32) k (j 1)))
        = V c main_arg6 (ix2 (n0 := 128) (n1 := 32) k ((((cfg0.win 9).blk t).view.emb j) 1))
    refine congrArg (V c main_arg6) ?_
    funext a; apply Fin.ext
    match a with
    | ⟨0, _⟩ => show win0_2.index t (0 : Fin 2) * 128 + 1 * k.val = k.val; omega
    | ⟨1, _⟩ => show win0_2.index t (1 : Fin 2) * 32 + 1 * (j 1).val = win0_9.index t (1 : Fin 2) * 32 + 1 * (j 1).val; omega
  · show V c main_v1 (((cfg0.win 5).blk t).view.emb (ix2 (n0 := 1) (n1 := 1) 0 0))
        = V c main_v1 (ix2 (n0 := 1) (n1 := 1) 0 0)
    refine congrArg (V c main_v1) ?_
    funext a; apply Fin.ext
    match a with
    | ⟨0, _⟩ => show win0_5.index t (0 : Fin 2) * 1 + 1 * 0 = 0; omega
    | ⟨1, _⟩ => show win0_5.index t (1 : Fin 2) * 1 + 1 * 0 = 0; omega

/-- An index of the array is in the one point's block of window 9 iff each coordinate is in the block's range on its axis. -/
theorem mem_blk9 (t : Fin cfg0.N) (i : S4096x32.Idx) :
    i ∈ ((cfg0.win 9).blk t).view.set ↔ ∀ a : Fin 2, win0_9.index t a * S4096x32.size a ≤ (i a).val ∧ (i a).val < win0_9.index t a * S4096x32.size a + S4096x32.size a := by
  show i ∈ ((View.whole main_v4_1).slice (win0_9.rect t)).set ↔ _
  rw [View.set_slice_whole, Rect.mem_set_unit]
  exact Iff.rfl

/-- The one block of window 9 is the whole array. -/
theorem cover9 (i : S4096x32.Idx) : ∃ t : Fin cfg0.N, (cfg0.win 9).flush t = true ∧ i ∈ ((cfg0.win 9).blk t).view.set := by
  have hi0 : (i 0).val < 4096 := (i 0).isLt
  have hi1 : (i 1).val < 32 := (i 1).isLt
  refine ⟨t0_0, flush0_9 t0_0, ?_⟩
  rw [mem_blk9]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t0_0
  intro a
  match a with
  | ⟨0, _⟩ => show win0_9.index t0_0 (0 : Fin 2) * 4096 ≤ (i 0).val ∧ (i 0).val < win0_9.index t0_0 (0 : Fin 2) * 4096 + 4096; omega
  | ⟨1, _⟩ => show win0_9.index t0_0 (1 : Fin 2) * 32 ≤ (i 1).val ∧ (i 1).val < win0_9.index t0_0 (1 : Fin 2) * 32 + 32; omega

/-- After the launch the array of output window 9 is `(f·W)·w` of the launch's input arrays. -/
theorem final9 (c : Dev nD) :
    (dat0 V c).arrAt 9 cfg0.N = kProj (V c main_arg0) (V c main_arg6) (V c main_v1 (ix2 (n0 := 1) (n1 := 1) 0 0)) :=
  (dat0 V c).arrAt_eq_of_cover 9 _ (fun t _ => flushed9 V c t) cover9

/-- What the one point writes back through output window 10 is `(f·W)·w` of the launch's input arrays, `w` the one entry of
    the `1 × 1` operand. -/
theorem flushed10 (c : Dev nD) (t : Fin cfg0.N) :
    (dat0 V c).flushed 10 t = ((cfg0.win 10).blk t).view.read (Elt Ideal)
      (kProj (V c main_arg1) (V c main_arg7) (V c main_v2 (ix2 (n0 := 1) (n1 := 1) 0 0))) := by
  show (cfg0.win 10).cut (grid0.coords t) ((dat0 V c).after 10 t) = _
  rw [after0_10]
  unfold out0_10
  rw [View.canon_unit_zero hz]
  simp only [View.ld_unit_zero (S := S4096x128) hz, View.ld_unit_zero (S := S128x32) hz, View.ld_unit_zero (S := S1x1) hz]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext j
  show k0_pay5 (F := Ideal) (iblk0 V c 1 t) (iblk0 V c 3 t) (iblk0 V c 6 t) j
      = kProj (V c main_arg1) (V c main_arg7) (V c main_v2 (ix2 (n0 := 1) (n1 := 1) 0 0)) (((cfg0.win 10).blk t).view.emb j)
  refine proj_block (k0_pay5 (F := Ideal)) pay5_eq (V c main_arg1) (V c main_arg7) (V c main_v2 (ix2 (n0 := 1) (n1 := 1) 0 0))
    (iblk0 V c 1 t) (iblk0 V c 3 t) (iblk0 V c 6 t) j (((cfg0.win 10).blk t).view.emb j)
    (fun k => ?_) (fun k => ?_) ?_
  · show V c main_arg1 (((cfg0.win 1).blk t).view.emb (ix2 (n0 := 4096) (n1 := 128) (j 0) k))
        = V c main_arg1 (ix2 (n0 := 4096) (n1 := 128) ((((cfg0.win 10).blk t).view.emb j) 0) k)
    refine congrArg (V c main_arg1) ?_
    funext a; apply Fin.ext
    match a with
    | ⟨0, _⟩ => show win0_1.index t (0 : Fin 2) * 4096 + 1 * (j 0).val = win0_10.index t (0 : Fin 2) * 4096 + 1 * (j 0).val; omega
    | ⟨1, _⟩ => show win0_1.index t (1 : Fin 2) * 128 + 1 * k.val = k.val; omega
  · show V c main_arg7 (((cfg0.win 3).blk t).view.emb (ix2 (n0 := 128) (n1 := 32) k (j 1)))
        = V c main_arg7 (ix2 (n0 := 128) (n1 := 32) k ((((cfg0.win 10).blk t).view.emb j) 1))
    refine congrArg (V c main_arg7) ?_
    funext a; apply Fin.ext
    match a with
    | ⟨0, _⟩ => show win0_3.index t (0 : Fin 2) * 128 + 1 * k.val = k.val; omega
    | ⟨1, _⟩ => show win0_3.index t (1 : Fin 2) * 32 + 1 * (j 1).val = win0_10.index t (1 : Fin 2) * 32 + 1 * (j 1).val; omega
  · show V c main_v2 (((cfg0.win 6).blk t).view.emb (ix2 (n0 := 1) (n1 := 1) 0 0))
        = V c main_v2 (ix2 (n0 := 1) (n1 := 1) 0 0)
    refine congrArg (V c main_v2) ?_
    funext a; apply Fin.ext
    match a with
    | ⟨0, _⟩ => show win0_6.index t (0 : Fin 2) * 1 + 1 * 0 = 0; omega
    | ⟨1, _⟩ => show win0_6.index t (1 : Fin 2) * 1 + 1 * 0 = 0; omega

/-- An index of the array is in the one point's block of window 10 iff each coordinate is in the block's range on its axis. -/
theorem mem_blk10 (t : Fin cfg0.N) (i : S4096x32.Idx) :
    i ∈ ((cfg0.win 10).blk t).view.set ↔ ∀ a : Fin 2, win0_10.index t a * S4096x32.size a ≤ (i a).val ∧ (i a).val < win0_10.index t a * S4096x32.size a + S4096x32.size a := by
  show i ∈ ((View.whole main_v4_2).slice (win0_10.rect t)).set ↔ _
  rw [View.set_slice_whole, Rect.mem_set_unit]
  exact Iff.rfl

/-- The one block of window 10 is the whole array. -/
theorem cover10 (i : S4096x32.Idx) : ∃ t : Fin cfg0.N, (cfg0.win 10).flush t = true ∧ i ∈ ((cfg0.win 10).blk t).view.set := by
  have hi0 : (i 0).val < 4096 := (i 0).isLt
  have hi1 : (i 1).val < 32 := (i 1).isLt
  refine ⟨t0_0, flush0_10 t0_0, ?_⟩
  rw [mem_blk10]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t0_0
  intro a
  match a with
  | ⟨0, _⟩ => show win0_10.index t0_0 (0 : Fin 2) * 4096 ≤ (i 0).val ∧ (i 0).val < win0_10.index t0_0 (0 : Fin 2) * 4096 + 4096; omega
  | ⟨1, _⟩ => show win0_10.index t0_0 (1 : Fin 2) * 32 ≤ (i 1).val ∧ (i 1).val < win0_10.index t0_0 (1 : Fin 2) * 32 + 32; omega

/-- After the launch the array of output window 10 is `(f·W)·w` of the launch's input arrays. -/
theorem final10 (c : Dev nD) :
    (dat0 V c).arrAt 10 cfg0.N = kProj (V c main_arg1) (V c main_arg7) (V c main_v2 (ix2 (n0 := 1) (n1 := 1) 0 0)) :=
  (dat0 V c).arrAt_eq_of_cover 10 _ (fun t _ => flushed10 V c t) cover10

/-- What the one point writes back through output window 11 is `(f·W)·w` of the launch's input arrays, `w` the one entry of
    the `1 × 1` operand. -/
theorem flushed11 (c : Dev nD) (t : Fin cfg0.N) :
    (dat0 V c).flushed 11 t = ((cfg0.win 11).blk t).view.read (Elt Ideal)
      (kProj (V c main_arg1) (V c main_arg7) (V c main_v3 (ix2 (n0 := 1) (n1 := 1) 0 0))) := by
  show (cfg0.win 11).cut (grid0.coords t) ((dat0 V c).after 11 t) = _
  rw [after0_11]
  unfold out0_11
  rw [View.canon_unit_zero hz]
  simp only [View.ld_unit_zero (S := S4096x128) hz, View.ld_unit_zero (S := S128x32) hz, View.ld_unit_zero (S := S1x1) hz]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext j
  show k0_pay6 (F := Ideal) (iblk0 V c 1 t) (iblk0 V c 3 t) (iblk0 V c 7 t) j
      = kProj (V c main_arg1) (V c main_arg7) (V c main_v3 (ix2 (n0 := 1) (n1 := 1) 0 0)) (((cfg0.win 11).blk t).view.emb j)
  refine proj_block (k0_pay6 (F := Ideal)) pay6_eq (V c main_arg1) (V c main_arg7) (V c main_v3 (ix2 (n0 := 1) (n1 := 1) 0 0))
    (iblk0 V c 1 t) (iblk0 V c 3 t) (iblk0 V c 7 t) j (((cfg0.win 11).blk t).view.emb j)
    (fun k => ?_) (fun k => ?_) ?_
  · show V c main_arg1 (((cfg0.win 1).blk t).view.emb (ix2 (n0 := 4096) (n1 := 128) (j 0) k))
        = V c main_arg1 (ix2 (n0 := 4096) (n1 := 128) ((((cfg0.win 11).blk t).view.emb j) 0) k)
    refine congrArg (V c main_arg1) ?_
    funext a; apply Fin.ext
    match a with
    | ⟨0, _⟩ => show win0_1.index t (0 : Fin 2) * 4096 + 1 * (j 0).val = win0_11.index t (0 : Fin 2) * 4096 + 1 * (j 0).val; omega
    | ⟨1, _⟩ => show win0_1.index t (1 : Fin 2) * 128 + 1 * k.val = k.val; omega
  · show V c main_arg7 (((cfg0.win 3).blk t).view.emb (ix2 (n0 := 128) (n1 := 32) k (j 1)))
        = V c main_arg7 (ix2 (n0 := 128) (n1 := 32) k ((((cfg0.win 11).blk t).view.emb j) 1))
    refine congrArg (V c main_arg7) ?_
    funext a; apply Fin.ext
    match a with
    | ⟨0, _⟩ => show win0_3.index t (0 : Fin 2) * 128 + 1 * k.val = k.val; omega
    | ⟨1, _⟩ => show win0_3.index t (1 : Fin 2) * 32 + 1 * (j 1).val = win0_11.index t (1 : Fin 2) * 32 + 1 * (j 1).val; omega
  · show V c main_v3 (((cfg0.win 7).blk t).view.emb (ix2 (n0 := 1) (n1 := 1) 0 0))
        = V c main_v3 (ix2 (n0 := 1) (n1 := 1) 0 0)
    refine congrArg (V c main_v3) ?_
    funext a; apply Fin.ext
    match a with
    | ⟨0, _⟩ => show win0_7.index t (0 : Fin 2) * 1 + 1 * 0 = 0; omega
    | ⟨1, _⟩ => show win0_7.index t (1 : Fin 2) * 1 + 1 * 0 = 0; omega

/-- An index of the array is in the one point's block of window 11 iff each coordinate is in the block's range on its axis. -/
theorem mem_blk11 (t : Fin cfg0.N) (i : S4096x32.Idx) :
    i ∈ ((cfg0.win 11).blk t).view.set ↔ ∀ a : Fin 2, win0_11.index t a * S4096x32.size a ≤ (i a).val ∧ (i a).val < win0_11.index t a * S4096x32.size a + S4096x32.size a := by
  show i ∈ ((View.whole main_v4_3).slice (win0_11.rect t)).set ↔ _
  rw [View.set_slice_whole, Rect.mem_set_unit]
  exact Iff.rfl

/-- The one block of window 11 is the whole array. -/
theorem cover11 (i : S4096x32.Idx) : ∃ t : Fin cfg0.N, (cfg0.win 11).flush t = true ∧ i ∈ ((cfg0.win 11).blk t).view.set := by
  have hi0 : (i 0).val < 4096 := (i 0).isLt
  have hi1 : (i 1).val < 32 := (i 1).isLt
  refine ⟨t0_0, flush0_11 t0_0, ?_⟩
  rw [mem_blk11]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t0_0
  intro a
  match a with
  | ⟨0, _⟩ => show win0_11.index t0_0 (0 : Fin 2) * 4096 ≤ (i 0).val ∧ (i 0).val < win0_11.index t0_0 (0 : Fin 2) * 4096 + 4096; omega
  | ⟨1, _⟩ => show win0_11.index t0_0 (1 : Fin 2) * 32 ≤ (i 1).val ∧ (i 1).val < win0_11.index t0_0 (1 : Fin 2) * 32 + 32; omega

/-- After the launch the array of output window 11 is `(f·W)·w` of the launch's input arrays. -/
theorem final11 (c : Dev nD) :
    (dat0 V c).arrAt 11 cfg0.N = kProj (V c main_arg1) (V c main_arg7) (V c main_v3 (ix2 (n0 := 1) (n1 := 1) 0 0)) :=
  (dat0 V c).arrAt_eq_of_cover 11 _ (fun t _ => flushed11 V c t) cover11

end Cert.KernelIdeal.Region0

end
-- ==== Proof.Region1.lean ====
/-
  The second launch (sixteen grid points), as values.

  At point `t` the launch stages rows `256·t … 256·t + 255` of each of the four adjacency matrices (a `256 × 4096` block)
  and the whole of the four scaled projections (`4096 × 32`), and writes back three `256 × 32` blocks, rows
  `256·t …` of three `4096 × 32` arrays: the two latents `A·R + B·R'` and the combined latent `0.5·(latent₁ + latent₂)`.
  An entry `(p, q)` of a written block depends on row `p` of the staged adjacency blocks, that is on row `256·t + p` of
  the adjacency matrices, and on column `q` of the projections: the block is the restriction to those rows of ONE
  whole-array function of the launch's input arrays. The sixteen blocks tile the rows, so after the launch each of the
  three arrays IS that function. Everything is stated for arbitrary contents `V` of the buffers at the launch's entry.
-/
import proofs.«110364_g68247030333984_cont_9to1_m_654_3_alg».proof.Proof.Gen.KernelIdeal.Frame
import proofs.«110364_g68247030333984_cont_9to1_m_654_3_alg».proof.Proof.MatmulAt
import proofs.«110364_g68247030333984_cont_9to1_m_654_3_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.At Cert.Spec
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## A block's entries from the arrays' entries -/

/-- A latent's block: entry `j` of `x₀·x₄ + x₁·x₅`, when row `j₀` of the adjacency blocks is row `i₀` of the adjacency
    matrices and column `j₁` of the staged projections is column `i₁` of the projections, is entry `i` of `A·R + B·R'`. -/
theorem lat_block (pay : Vec Ideal S256x4096 .f32 → Vec Ideal S4096x32 .f32 → Vec Ideal S256x4096 .f32 → Vec Ideal S4096x32 .f32 → FVec Ideal S256x32 .f32)
    (hpay : ∀ x0 x4 x1 x5 j, pay x0 x4 x1 x5 j = mm x0 x4 j + mm x1 x5 j)
    (A B : Mat 4096 4096) (R R' : Mat 4096 32)
    (x0 x1 : Vec Ideal S256x4096 .f32) (x4 x5 : Vec Ideal S4096x32 .f32) (j : S256x32.Idx) (i : S4096x32.Idx)
    (h0 : ∀ k : Fin 4096, x0 (ix2 (n0 := 256) (n1 := 4096) (j 0) k) = A (ix2 (n0 := 4096) (n1 := 4096) (i 0) k))
    (h1 : ∀ k : Fin 4096, x1 (ix2 (n0 := 256) (n1 := 4096) (j 0) k) = B (ix2 (n0 := 4096) (n1 := 4096) (i 0) k))
    (h4 : ∀ k : Fin 4096, x4 (ix2 (n0 := 4096) (n1 := 32) k (j 1)) = R (ix2 (n0 := 4096) (n1 := 32) k (i 1)))
    (h5 : ∀ k : Fin 4096, x5 (ix2 (n0 := 4096) (n1 := 32) k (j 1)) = R' (ix2 (n0 := 4096) (n1 := 32) k (i 1))) :
    pay x0 x4 x1 x5 j = kLat A B R R' i := by
  rw [hpay]
  unfold kLat add mm
  simp only [h0, h1, h4, h5]

/-- The first latent's payload is the sum of two products. -/
theorem pay1_eq (x0 : Vec Ideal S256x4096 .f32) (x4 : Vec Ideal S4096x32 .f32) (x1 : Vec Ideal S256x4096 .f32) (x5 : Vec Ideal S4096x32 .f32)
    (j : S256x32.Idx) : k1_pay1 (F := Ideal) x0 x4 x1 x5 j = mm x0 x4 j + mm x1 x5 j := by
  unfold k1_pay1
  simp only [addf_apply, shapeCast_self, matmul_256x4096_4096x32]

/-- The second latent's payload is the sum of two products. -/
theorem pay2_eq (x2 : Vec Ideal S256x4096 .f32) (x6 : Vec Ideal S4096x32 .f32) (x3 : Vec Ideal S256x4096 .f32) (x7 : Vec Ideal S4096x32 .f32)
    (j : S256x32.Idx) : k1_pay2 (F := Ideal) x2 x6 x3 x7 j = mm x2 x6 j + mm x3 x7 j := by
  unfold k1_pay2
  simp only [addf_apply, shapeCast_self, matmul_256x4096_4096x32]

/-- The combined latent's payload is the float `0.5` times the sum of the two latents' payloads. -/
theorem pay3_eq (x0 : Vec Ideal S256x4096 .f32) (x4 : Vec Ideal S4096x32 .f32) (x1 : Vec Ideal S256x4096 .f32) (x5 : Vec Ideal S4096x32 .f32)
    (x2 : Vec Ideal S256x4096 .f32) (x6 : Vec Ideal S4096x32 .f32) (x3 : Vec Ideal S256x4096 .f32) (x7 : Vec Ideal S4096x32 .f32)
    (j : S256x32.Idx) :
    k1_pay3 (F := Ideal) x0 x4 x1 x5 x2 x6 x3 x7 j = half * (k1_pay1 (F := Ideal) x0 x4 x1 x5 j + k1_pay2 (F := Ideal) x2 x6 x3 x7 j) := by
  unfold k1_pay3
  rfl

/-- The combined latent's block: entry `j` of `0.5·((x₀·x₄ + x₁·x₅) + (x₂·x₆ + x₃·x₇))`, under the same reading of the eight
    staged blocks, is entry `i` of `0.5·((A·R + B·R') + (A'·R₂ + B'·R₃))`. -/
theorem comb_block (A B A' B' : Mat 4096 4096) (R R' R2 R3 : Mat 4096 32)
    (x0 x1 x2 x3 : Vec Ideal S256x4096 .f32) (x4 x5 x6 x7 : Vec Ideal S4096x32 .f32) (j : S256x32.Idx) (i : S4096x32.Idx)
    (h0 : ∀ k : Fin 4096, x0 (ix2 (n0 := 256) (n1 := 4096) (j 0) k) = A (ix2 (n0 := 4096) (n1 := 4096) (i 0) k))
    (h1 : ∀ k : Fin 4096, x1 (ix2 (n0 := 256) (n1 := 4096) (j 0) k) = B (ix2 (n0 := 4096) (n1 := 4096) (i 0) k))
    (h2 : ∀ k : Fin 4096, x2 (ix2 (n0 := 256) (n1 := 4096) (j 0) k) = A' (ix2 (n0 := 4096) (n1 := 4096) (i 0) k))
    (h3 : ∀ k : Fin 4096, x3 (ix2 (n0 := 256) (n1 := 4096) (j 0) k) = B' (ix2 (n0 := 4096) (n1 := 4096) (i 0) k))
    (h4 : ∀ k : Fin 4096, x4 (ix2 (n0 := 4096) (n1 := 32) k (j 1)) = R (ix2 (n0 := 4096) (n1 := 32) k (i 1)))
    (h5 : ∀ k : Fin 4096, x5 (ix2 (n0 := 4096) (n1 := 32) k (j 1)) = R' (ix2 (n0 := 4096) (n1 := 32) k (i 1)))
    (h6 : ∀ k : Fin 4096, x6 (ix2 (n0 := 4096) (n1 := 32) k (j 1)) = R2 (ix2 (n0 := 4096) (n1 := 32) k (i 1)))
    (h7 : ∀ k : Fin 4096, x7 (ix2 (n0 := 4096) (n1 := 32) k (j 1)) = R3 (ix2 (n0 := 4096) (n1 := 32) k (i 1))) :
    k1_pay3 (F := Ideal) x0 x4 x1 x5 x2 x6 x3 x7 j = kComb (kLat A B R R') (kLat A' B' R2 R3) i := by
  rw [pay3_eq, lat_block (k1_pay1 (F := Ideal)) pay1_eq A B R R' x0 x1 x4 x5 j i h0 h1 h4 h5,
    lat_block (k1_pay2 (F := Ideal)) pay2_eq A' B' R2 R3 x2 x3 x6 x7 j i h2 h3 h6 h7]
  rfl

/-! ## From the blocks to the arrays -/

variable (V : (c : Dev nD) → (b : Ref sig .tc) → Buf (Elt Ideal) ((c : Thread nD τ).loc b))

/-- The printed index maps, decided over the sixteen points: an adjacency's block and an output's block at point `t` are
    block-row `t`, block-column `0`; a projection's block is the whole array at every point. -/
theorem idx_facts : ∀ t : Fin cfg1.N,
      win1_0.index t (0 : Fin 2) = t.val ∧ win1_0.index t (1 : Fin 2) = 0 ∧
      win1_1.index t (0 : Fin 2) = t.val ∧ win1_1.index t (1 : Fin 2) = 0 ∧
      win1_2.index t (0 : Fin 2) = t.val ∧ win1_2.index t (1 : Fin 2) = 0 ∧
      win1_3.index t (0 : Fin 2) = t.val ∧ win1_3.index t (1 : Fin 2) = 0 ∧
      win1_4.index t (0 : Fin 2) = 0 ∧ win1_4.index t (1 : Fin 2) = 0 ∧
      win1_5.index t (0 : Fin 2) = 0 ∧ win1_5.index t (1 : Fin 2) = 0 ∧
      win1_6.index t (0 : Fin 2) = 0 ∧ win1_6.index t (1 : Fin 2) = 0 ∧
      win1_7.index t (0 : Fin 2) = 0 ∧ win1_7.index t (1 : Fin 2) = 0 ∧
      win1_8.index t (0 : Fin 2) = t.val ∧ win1_8.index t (1 : Fin 2) = 0 ∧
      win1_9.index t (0 : Fin 2) = t.val ∧ win1_9.index t (1 : Fin 2) = 0 ∧
      win1_10.index t (0 : Fin 2) = t.val ∧ win1_10.index t (1 : Fin 2) = 0 :=
  (by decide +kernel : ∀ t : Fin grid1.N, _)

/-- What point `t` writes back through output window 8 is rows `256·t …` of `A·R + B·R'` of the launch's input arrays. -/
theorem flushed8 (c : Dev nD) (t : Fin cfg1.N) :
    (dat1 V c).flushed 8 t = ((cfg1.win 8).blk t).view.read (Elt Ideal)
      (kLat (V c main_arg2) (V c main_arg3) (V c main_v4_0) (V c main_v4_1)) := by
  show (cfg1.win 8).cut (grid1.coords t) ((dat1 V c).after 8 t) = _
  rw [after1_8]
  unfold out1_8
  rw [View.canon_unit_zero hz]
  simp only [View.ld_unit_zero (S := S256x4096) hz, View.ld_unit_zero (S := S4096x32) hz]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext j
  show k1_pay1 (F := Ideal) (iblk1 V c 0 t) (iblk1 V c 4 t) (iblk1 V c 1 t) (iblk1 V c 5 t) j
      = kLat (V c main_arg2) (V c main_arg3) (V c main_v4_0) (V c main_v4_1) (((cfg1.win 8).blk t).view.emb j)
  refine lat_block (k1_pay1 (F := Ideal)) pay1_eq (V c main_arg2) (V c main_arg3) (V c main_v4_0) (V c main_v4_1)
    (iblk1 V c 0 t) (iblk1 V c 1 t) (iblk1 V c 4 t) (iblk1 V c 5 t) j (((cfg1.win 8).blk t).view.emb j)
    (fun k => ?_) (fun k => ?_) (fun k => ?_) (fun k => ?_)
  · show V c main_arg2 (((cfg1.win 0).blk t).view.emb (ix2 (n0 := 256) (n1 := 4096) (j 0) k))
        = V c main_arg2 (ix2 (n0 := 4096) (n1 := 4096) ((((cfg1.win 8).blk t).view.emb j) 0) k)
    refine congrArg (V c main_arg2) ?_
    funext a; apply Fin.ext
    match a with
    | ⟨0, _⟩ => show win1_0.index t (0 : Fin 2) * 256 + 1 * (j 0).val = win1_8.index t (0 : Fin 2) * 256 + 1 * (j 0).val; omega
    | ⟨1, _⟩ => show win1_0.index t (1 : Fin 2) * 4096 + 1 * k.val = k.val; omega
  · show V c main_arg3 (((cfg1.win 1).blk t).view.emb (ix2 (n0 := 256) (n1 := 4096) (j 0) k))
        = V c main_arg3 (ix2 (n0 := 4096) (n1 := 4096) ((((cfg1.win 8).blk t).view.emb j) 0) k)
    refine congrArg (V c main_arg3) ?_
    funext a; apply Fin.ext
    match a with
    | ⟨0, _⟩ => show win1_1.index t (0 : Fin 2) * 256 + 1 * (j 0).val = win1_8.index t (0 : Fin 2) * 256 + 1 * (j 0).val; omega
    | ⟨1, _⟩ => show win1_1.index t (1 : Fin 2) * 4096 + 1 * k.val = k.val; omega
  · show V c main_v4_0 (((cfg1.win 4).blk t).view.emb (ix2 (n0 := 4096) (n1 := 32) k (j 1)))
        = V c main_v4_0 (ix2 (n0 := 4096) (n1 := 32) k ((((cfg1.win 8).blk t).view.emb j) 1))
    refine congrArg (V c main_v4_0) ?_
    funext a; apply Fin.ext
    match a with
    | ⟨0, _⟩ => show win1_4.index t (0 : Fin 2) * 4096 + 1 * k.val = k.val; omega
    | ⟨1, _⟩ => show win1_4.index t (1 : Fin 2) * 32 + 1 * (j 1).val = win1_8.index t (1 : Fin 2) * 32 + 1 * (j 1).val; omega
  · show V c main_v4_1 (((cfg1.win 5).blk t).view.emb (ix2 (n0 := 4096) (n1 := 32) k (j 1)))
        = V c main_v4_1 (ix2 (n0 := 4096) (n1 := 32) k ((((cfg1.win 8).blk t).view.emb j) 1))
    refine congrArg (V c main_v4_1) ?_
    funext a; apply Fin.ext
    match a with
    | ⟨0, _⟩ => show win1_5.index t (0 : Fin 2) * 4096 + 1 * k.val = k.val; omega
    | ⟨1, _⟩ => show win1_5.index t (1 : Fin 2) * 32 + 1 * (j 1).val = win1_8.index t (1 : Fin 2) * 32 + 1 * (j 1).val; omega

/-- An index of the array is in point `t`'s block of window 8 iff each coordinate is in the block's range on its axis. -/
theorem mem_blk8 (t : Fin cfg1.N) (i : S4096x32.Idx) :
    i ∈ ((cfg1.win 8).blk t).view.set ↔ ∀ a : Fin 2, win1_8.index t a * S256x32.size a ≤ (i a).val ∧ (i a).val < win1_8.index t a * S256x32.size a + S256x32.size a := by
  show i ∈ ((View.whole main_v5_0).slice (win1_8.rect t)).set ↔ _
  rw [View.set_slice_whole, Rect.mem_set_unit]
  exact Iff.rfl

/-- Every row `r` of the array is in the block of point `r / 256`: the sixteen blocks of window 8 tile the array. -/
theorem cover8 (i : S4096x32.Idx) : ∃ t : Fin cfg1.N, (cfg1.win 8).flush t = true ∧ i ∈ ((cfg1.win 8).blk t).view.set := by
  have hi0 : (i 0).val < 4096 := (i 0).isLt
  have hi1 : (i 1).val < 32 := (i 1).isLt
  obtain ⟨t, ht⟩ : ∃ t : Fin cfg1.N, t.val = (i 0).val / 256 :=
    ⟨⟨(i 0).val / 256, by show (i 0).val / 256 < grid1.N; rw [N_1]; omega⟩, rfl⟩
  refine ⟨t, flush1_8 t, ?_⟩
  rw [mem_blk8]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  intro a
  match a with
  | ⟨0, _⟩ => show win1_8.index t (0 : Fin 2) * 256 ≤ (i 0).val ∧ (i 0).val < win1_8.index t (0 : Fin 2) * 256 + 256; omega
  | ⟨1, _⟩ => show win1_8.index t (1 : Fin 2) * 32 ≤ (i 1).val ∧ (i 1).val < win1_8.index t (1 : Fin 2) * 32 + 32; omega

/-- After the launch the array of output window 8 is `A·R + B·R'` of the launch's input arrays. -/
theorem final8 (c : Dev nD) :
    (dat1 V c).arrAt 8 cfg1.N = kLat (V c main_arg2) (V c main_arg3) (V c main_v4_0) (V c main_v4_1) :=
  (dat1 V c).arrAt_eq_of_cover 8 _ (fun t _ => flushed8 V c t) cover8

/-- What point `t` writes back through output window 9 is rows `256·t …` of `A·R + B·R'` of the launch's input arrays. -/
theorem flushed9 (c : Dev nD) (t : Fin cfg1.N) :
    (dat1 V c).flushed 9 t = ((cfg1.win 9).blk t).view.read (Elt Ideal)
      (kLat (V c main_arg4) (V c main_arg5) (V c main_v4_2) (V c main_v4_3)) := by
  show (cfg1.win 9).cut (grid1.coords t) ((dat1 V c).after 9 t) = _
  rw [after1_9]
  unfold out1_9
  rw [View.canon_unit_zero hz]
  simp only [View.ld_unit_zero (S := S256x4096) hz, View.ld_unit_zero (S := S4096x32) hz]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext j
  show k1_pay2 (F := Ideal) (iblk1 V c 2 t) (iblk1 V c 6 t) (iblk1 V c 3 t) (iblk1 V c 7 t) j
      = kLat (V c main_arg4) (V c main_arg5) (V c main_v4_2) (V c main_v4_3) (((cfg1.win 9).blk t).view.emb j)
  refine lat_block (k1_pay2 (F := Ideal)) pay2_eq (V c main_arg4) (V c main_arg5) (V c main_v4_2) (V c main_v4_3)
    (iblk1 V c 2 t) (iblk1 V c 3 t) (iblk1 V c 6 t) (iblk1 V c 7 t) j (((cfg1.win 9).blk t).view.emb j)
    (fun k => ?_) (fun k => ?_) (fun k => ?_) (fun k => ?_)
  · show V c main_arg4 (((cfg1.win 2).blk t).view.emb (ix2 (n0 := 256) (n1 := 4096) (j 0) k))
        = V c main_arg4 (ix2 (n0 := 4096) (n1 := 4096) ((((cfg1.win 9).blk t).view.emb j) 0) k)
    refine congrArg (V c main_arg4) ?_
    funext a; apply Fin.ext
    match a with
    | ⟨0, _⟩ => show win1_2.index t (0 : Fin 2) * 256 + 1 * (j 0).val = win1_9.index t (0 : Fin 2) * 256 + 1 * (j 0).val; omega
    | ⟨1, _⟩ => show win1_2.index t (1 : Fin 2) * 4096 + 1 * k.val = k.val; omega
  · show V c main_arg5 (((cfg1.win 3).blk t).view.emb (ix2 (n0 := 256) (n1 := 4096) (j 0) k))
        = V c main_arg5 (ix2 (n0 := 4096) (n1 := 4096) ((((cfg1.win 9).blk t).view.emb j) 0) k)
    refine congrArg (V c main_arg5) ?_
    funext a; apply Fin.ext
    match a with
    | ⟨0, _⟩ => show win1_3.index t (0 : Fin 2) * 256 + 1 * (j 0).val = win1_9.index t (0 : Fin 2) * 256 + 1 * (j 0).val; omega
    | ⟨1, _⟩ => show win1_3.index t (1 : Fin 2) * 4096 + 1 * k.val = k.val; omega
  · show V c main_v4_2 (((cfg1.win 6).blk t).view.emb (ix2 (n0 := 4096) (n1 := 32) k (j 1)))
        = V c main_v4_2 (ix2 (n0 := 4096) (n1 := 32) k ((((cfg1.win 9).blk t).view.emb j) 1))
    refine congrArg (V c main_v4_2) ?_
    funext a; apply Fin.ext
    match a with
    | ⟨0, _⟩ => show win1_6.index t (0 : Fin 2) * 4096 + 1 * k.val = k.val; omega
    | ⟨1, _⟩ => show win1_6.index t (1 : Fin 2) * 32 + 1 * (j 1).val = win1_9.index t (1 : Fin 2) * 32 + 1 * (j 1).val; omega
  · show V c main_v4_3 (((cfg1.win 7).blk t).view.emb (ix2 (n0 := 4096) (n1 := 32) k (j 1)))
        = V c main_v4_3 (ix2 (n0 := 4096) (n1 := 32) k ((((cfg1.win 9).blk t).view.emb j) 1))
    refine congrArg (V c main_v4_3) ?_
    funext a; apply Fin.ext
    match a with
    | ⟨0, _⟩ => show win1_7.index t (0 : Fin 2) * 4096 + 1 * k.val = k.val; omega
    | ⟨1, _⟩ => show win1_7.index t (1 : Fin 2) * 32 + 1 * (j 1).val = win1_9.index t (1 : Fin 2) * 32 + 1 * (j 1).val; omega

/-- An index of the array is in point `t`'s block of window 9 iff each coordinate is in the block's range on its axis. -/
theorem mem_blk9 (t : Fin cfg1.N) (i : S4096x32.Idx) :
    i ∈ ((cfg1.win 9).blk t).view.set ↔ ∀ a : Fin 2, win1_9.index t a * S256x32.size a ≤ (i a).val ∧ (i a).val < win1_9.index t a * S256x32.size a + S256x32.size a := by
  show i ∈ ((View.whole main_v5_1).slice (win1_9.rect t)).set ↔ _
  rw [View.set_slice_whole, Rect.mem_set_unit]
  exact Iff.rfl

/-- Every row `r` of the array is in the block of point `r / 256`: the sixteen blocks of window 9 tile the array. -/
theorem cover9 (i : S4096x32.Idx) : ∃ t : Fin cfg1.N, (cfg1.win 9).flush t = true ∧ i ∈ ((cfg1.win 9).blk t).view.set := by
  have hi0 : (i 0).val < 4096 := (i 0).isLt
  have hi1 : (i 1).val < 32 := (i 1).isLt
  obtain ⟨t, ht⟩ : ∃ t : Fin cfg1.N, t.val = (i 0).val / 256 :=
    ⟨⟨(i 0).val / 256, by show (i 0).val / 256 < grid1.N; rw [N_1]; omega⟩, rfl⟩
  refine ⟨t, flush1_9 t, ?_⟩
  rw [mem_blk9]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  intro a
  match a with
  | ⟨0, _⟩ => show win1_9.index t (0 : Fin 2) * 256 ≤ (i 0).val ∧ (i 0).val < win1_9.index t (0 : Fin 2) * 256 + 256; omega
  | ⟨1, _⟩ => show win1_9.index t (1 : Fin 2) * 32 ≤ (i 1).val ∧ (i 1).val < win1_9.index t (1 : Fin 2) * 32 + 32; omega

/-- After the launch the array of output window 9 is `A·R + B·R'` of the launch's input arrays. -/
theorem final9 (c : Dev nD) :
    (dat1 V c).arrAt 9 cfg1.N = kLat (V c main_arg4) (V c main_arg5) (V c main_v4_2) (V c main_v4_3) :=
  (dat1 V c).arrAt_eq_of_cover 9 _ (fun t _ => flushed9 V c t) cover9

/-- What point `t` writes back through output window 10 is rows `256·t …` of the combined latent of the launch's input arrays. -/
theorem flushed10 (c : Dev nD) (t : Fin cfg1.N) :
    (dat1 V c).flushed 10 t = ((cfg1.win 10).blk t).view.read (Elt Ideal)
      (kComb (kLat (V c main_arg2) (V c main_arg3) (V c main_v4_0) (V c main_v4_1)) (kLat (V c main_arg4) (V c main_arg5) (V c main_v4_2) (V c main_v4_3))) := by
  show (cfg1.win 10).cut (grid1.coords t) ((dat1 V c).after 10 t) = _
  rw [after1_10]
  unfold out1_10
  rw [View.canon_unit_zero hz]
  simp only [View.ld_unit_zero (S := S256x4096) hz, View.ld_unit_zero (S := S4096x32) hz]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext j
  show k1_pay3 (F := Ideal) (iblk1 V c 0 t) (iblk1 V c 4 t) (iblk1 V c 1 t) (iblk1 V c 5 t) (iblk1 V c 2 t) (iblk1 V c 6 t) (iblk1 V c 3 t) (iblk1 V c 7 t) j
      = kComb (kLat (V c main_arg2) (V c main_arg3) (V c main_v4_0) (V c main_v4_1)) (kLat (V c main_arg4) (V c main_arg5) (V c main_v4_2) (V c main_v4_3)) (((cfg1.win 10).blk t).view.emb j)
  refine comb_block (V c main_arg2) (V c main_arg3) (V c main_arg4) (V c main_arg5) (V c main_v4_0) (V c main_v4_1) (V c main_v4_2) (V c main_v4_3)
    (iblk1 V c 0 t) (iblk1 V c 1 t) (iblk1 V c 2 t) (iblk1 V c 3 t) (iblk1 V c 4 t) (iblk1 V c 5 t) (iblk1 V c 6 t) (iblk1 V c 7 t) j (((cfg1.win 10).blk t).view.emb j)
    (fun k => ?_) (fun k => ?_) (fun k => ?_) (fun k => ?_) (fun k => ?_) (fun k => ?_) (fun k => ?_) (fun k => ?_)
  · show V c main_arg2 (((cfg1.win 0).blk t).view.emb (ix2 (n0 := 256) (n1 := 4096) (j 0) k))
        = V c main_arg2 (ix2 (n0 := 4096) (n1 := 4096) ((((cfg1.win 10).blk t).view.emb j) 0) k)
    refine congrArg (V c main_arg2) ?_
    funext a; apply Fin.ext
    match a with
    | ⟨0, _⟩ => show win1_0.index t (0 : Fin 2) * 256 + 1 * (j 0).val = win1_10.index t (0 : Fin 2) * 256 + 1 * (j 0).val; omega
    | ⟨1, _⟩ => show win1_0.index t (1 : Fin 2) * 4096 + 1 * k.val = k.val; omega
  · show V c main_arg3 (((cfg1.win 1).blk t).view.emb (ix2 (n0 := 256) (n1 := 4096) (j 0) k))
        = V c main_arg3 (ix2 (n0 := 4096) (n1 := 4096) ((((cfg1.win 10).blk t).view.emb j) 0) k)
    refine congrArg (V c main_arg3) ?_
    funext a; apply Fin.ext
    match a with
    | ⟨0, _⟩ => show win1_1.index t (0 : Fin 2) * 256 + 1 * (j 0).val = win1_10.index t (0 : Fin 2) * 256 + 1 * (j 0).val; omega
    | ⟨1, _⟩ => show win1_1.index t (1 : Fin 2) * 4096 + 1 * k.val = k.val; omega
  · show V c main_arg4 (((cfg1.win 2).blk t).view.emb (ix2 (n0 := 256) (n1 := 4096) (j 0) k))
        = V c main_arg4 (ix2 (n0 := 4096) (n1 := 4096) ((((cfg1.win 10).blk t).view.emb j) 0) k)
    refine congrArg (V c main_arg4) ?_
    funext a; apply Fin.ext
    match a with
    | ⟨0, _⟩ => show win1_2.index t (0 : Fin 2) * 256 + 1 * (j 0).val = win1_10.index t (0 : Fin 2) * 256 + 1 * (j 0).val; omega
    | ⟨1, _⟩ => show win1_2.index t (1 : Fin 2) * 4096 + 1 * k.val = k.val; omega
  · show V c main_arg5 (((cfg1.win 3).blk t).view.emb (ix2 (n0 := 256) (n1 := 4096) (j 0) k))
        = V c main_arg5 (ix2 (n0 := 4096) (n1 := 4096) ((((cfg1.win 10).blk t).view.emb j) 0) k)
    refine congrArg (V c main_arg5) ?_
    funext a; apply Fin.ext
    match a with
    | ⟨0, _⟩ => show win1_3.index t (0 : Fin 2) * 256 + 1 * (j 0).val = win1_10.index t (0 : Fin 2) * 256 + 1 * (j 0).val; omega
    | ⟨1, _⟩ => show win1_3.index t (1 : Fin 2) * 4096 + 1 * k.val = k.val; omega
  · show V c main_v4_0 (((cfg1.win 4).blk t).view.emb (ix2 (n0 := 4096) (n1 := 32) k (j 1)))
        = V c main_v4_0 (ix2 (n0 := 4096) (n1 := 32) k ((((cfg1.win 10).blk t).view.emb j) 1))
    refine congrArg (V c main_v4_0) ?_
    funext a; apply Fin.ext
    match a with
    | ⟨0, _⟩ => show win1_4.index t (0 : Fin 2) * 4096 + 1 * k.val = k.val; omega
    | ⟨1, _⟩ => show win1_4.index t (1 : Fin 2) * 32 + 1 * (j 1).val = win1_10.index t (1 : Fin 2) * 32 + 1 * (j 1).val; omega
  · show V c main_v4_1 (((cfg1.win 5).blk t).view.emb (ix2 (n0 := 4096) (n1 := 32) k (j 1)))
        = V c main_v4_1 (ix2 (n0 := 4096) (n1 := 32) k ((((cfg1.win 10).blk t).view.emb j) 1))
    refine congrArg (V c main_v4_1) ?_
    funext a; apply Fin.ext
    match a with
    | ⟨0, _⟩ => show win1_5.index t (0 : Fin 2) * 4096 + 1 * k.val = k.val; omega
    | ⟨1, _⟩ => show win1_5.index t (1 : Fin 2) * 32 + 1 * (j 1).val = win1_10.index t (1 : Fin 2) * 32 + 1 * (j 1).val; omega
  · show V c main_v4_2 (((cfg1.win 6).blk t).view.emb (ix2 (n0 := 4096) (n1 := 32) k (j 1)))
        = V c main_v4_2 (ix2 (n0 := 4096) (n1 := 32) k ((((cfg1.win 10).blk t).view.emb j) 1))
    refine congrArg (V c main_v4_2) ?_
    funext a; apply Fin.ext
    match a with
    | ⟨0, _⟩ => show win1_6.index t (0 : Fin 2) * 4096 + 1 * k.val = k.val; omega
    | ⟨1, _⟩ => show win1_6.index t (1 : Fin 2) * 32 + 1 * (j 1).val = win1_10.index t (1 : Fin 2) * 32 + 1 * (j 1).val; omega
  · show V c main_v4_3 (((cfg1.win 7).blk t).view.emb (ix2 (n0 := 4096) (n1 := 32) k (j 1)))
        = V c main_v4_3 (ix2 (n0 := 4096) (n1 := 32) k ((((cfg1.win 10).blk t).view.emb j) 1))
    refine congrArg (V c main_v4_3) ?_
    funext a; apply Fin.ext
    match a with
    | ⟨0, _⟩ => show win1_7.index t (0 : Fin 2) * 4096 + 1 * k.val = k.val; omega
    | ⟨1, _⟩ => show win1_7.index t (1 : Fin 2) * 32 + 1 * (j 1).val = win1_10.index t (1 : Fin 2) * 32 + 1 * (j 1).val; omega

/-- An index of the array is in point `t`'s block of window 10 iff each coordinate is in the block's range on its axis. -/
theorem mem_blk10 (t : Fin cfg1.N) (i : S4096x32.Idx) :
    i ∈ ((cfg1.win 10).blk t).view.set ↔ ∀ a : Fin 2, win1_10.index t a * S256x32.size a ≤ (i a).val ∧ (i a).val < win1_10.index t a * S256x32.size a + S256x32.size a := by
  show i ∈ ((View.whole main_v5_2).slice (win1_10.rect t)).set ↔ _
  rw [View.set_slice_whole, Rect.mem_set_unit]
  exact Iff.rfl

/-- Every row `r` of the array is in the block of point `r / 256`: the sixteen blocks of window 10 tile the array. -/
theorem cover10 (i : S4096x32.Idx) : ∃ t : Fin cfg1.N, (cfg1.win 10).flush t = true ∧ i ∈ ((cfg1.win 10).blk t).view.set := by
  have hi0 : (i 0).val < 4096 := (i 0).isLt
  have hi1 : (i 1).val < 32 := (i 1).isLt
  obtain ⟨t, ht⟩ : ∃ t : Fin cfg1.N, t.val = (i 0).val / 256 :=
    ⟨⟨(i 0).val / 256, by show (i 0).val / 256 < grid1.N; rw [N_1]; omega⟩, rfl⟩
  refine ⟨t, flush1_10 t, ?_⟩
  rw [mem_blk10]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  intro a
  match a with
  | ⟨0, _⟩ => show win1_10.index t (0 : Fin 2) * 256 ≤ (i 0).val ∧ (i 0).val < win1_10.index t (0 : Fin 2) * 256 + 256; omega
  | ⟨1, _⟩ => show win1_10.index t (1 : Fin 2) * 32 ≤ (i 1).val ∧ (i 1).val < win1_10.index t (1 : Fin 2) * 32 + 32; omega

/-- After the launch the array of output window 10 is the combined latent `0.5·(latent₁ + latent₂)` of the launch's input arrays. -/
theorem final10 (c : Dev nD) :
    (dat1 V c).arrAt 10 cfg1.N = kComb (kLat (V c main_arg2) (V c main_arg3) (V c main_v4_0) (V c main_v4_1)) (kLat (V c main_arg4) (V c main_arg5) (V c main_v4_2) (V c main_v4_3)) :=
  (dat1 V c).arrAt_eq_of_cover 10 _ (fun t _ => flushed10 V c t) cover10

end Cert.KernelIdeal.Region1

end
-- ==== Proof.Region2.lean ====
/-
  The third launch (eight grid points), as values.

  At point `t` the launch stages rows `512·t … 512·t + 511` of the two spatial adjacency matrices (a `512 × 4096` block
  each), the whole combined latent (`4096 × 32`) and the whole of the two decoder matrices (`32 × 128`), and writes back two
  `512 × 128` blocks, rows `512·t …` of two `4096 × 128` arrays: `(A·C)·D` for each adjacency `A` with its decoder `D`.
  An entry `(p, q)` of a written block depends on row `512·t + p` of the adjacency, on all of the combined latent and on
  column `q` of the decoder: the block is the restriction to those rows of ONE whole-array function of the launch's input
  arrays, and the eight blocks tile the rows. Everything is stated for arbitrary contents `V` at the launch's entry.
-/
import proofs.«110364_g68247030333984_cont_9to1_m_654_3_alg».proof.Proof.Gen.KernelIdeal.Frame
import proofs.«110364_g68247030333984_cont_9to1_m_654_3_alg».proof.Proof.MatmulAt
import proofs.«110364_g68247030333984_cont_9to1_m_654_3_alg».proof.Proof.Spec
import Idealize.ShloMosaic.Lib.Pipeline.Value
import Idealize.ShloMosaic.Lib.ValueIdx

set_option maxRecDepth 16384

noncomputable section

namespace Cert.KernelIdeal.Region2

open Cert.KernelIdeal Cert.KernelIdeal.Gen Cert.KernelIdeal.At Cert.Spec
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## A block's entries from the arrays' entries -/

/-- The payload is a product of a product: `(x·y)·z`. -/
theorem pay1_eq (x : Vec Ideal S512x4096 .f32) (y : Vec Ideal S4096x32 .f32) (z : Vec Ideal S32x128 .f32) (j : S512x128.Idx) :
    k2_pay1 (F := Ideal) x y z j = mm (mm x y) z j := by
  have e : matmul (F := Ideal) dot_S512x4096_S4096x32_S512x32_1_0_0_1_n_n none x y (constant S512x32 .f32 0x00000000#32) = mm x y :=
    funext fun u => matmul_512x4096_4096x32 x y u
  unfold k2_pay1
  simp only [shapeCast_self, matmul_512x32_32x128, e]

/-- The payload is a product of a product: `(x·y)·z`. -/
theorem pay2_eq (x : Vec Ideal S512x4096 .f32) (y : Vec Ideal S4096x32 .f32) (z : Vec Ideal S32x128 .f32) (j : S512x128.Idx) :
    k2_pay2 (F := Ideal) x y z j = mm (mm x y) z j := by
  have e : matmul (F := Ideal) dot_S512x4096_S4096x32_S512x32_1_0_0_1_n_n none x y (constant S512x32 .f32 0x00000000#32) = mm x y :=
    funext fun u => matmul_512x4096_4096x32 x y u
  unfold k2_pay2
  simp only [shapeCast_self, matmul_512x32_32x128, e]

/-- A reconstruction's block: entry `j` of `(x₀·x₂)·x₃`, when row `j₀` of the adjacency block is row `i₀` of the adjacency
    matrix, the staged combined latent is the combined latent, and column `j₁` of the staged decoder is column `i₁` of the
    decoder, is entry `i` of `(A·C)·D`. -/
theorem rec_block (pay : Vec Ideal S512x4096 .f32 → Vec Ideal S4096x32 .f32 → Vec Ideal S32x128 .f32 → FVec Ideal S512x128 .f32)
    (hpay : ∀ x y z j, pay x y z j = mm (mm x y) z j)
    (A : Mat 4096 4096) (C : Mat 4096 32) (D : Mat 32 128)
    (x0 : Vec Ideal S512x4096 .f32) (x2 : Vec Ideal S4096x32 .f32) (x3 : Vec Ideal S32x128 .f32) (j : S512x128.Idx) (i : S4096x128.Idx)
    (h0 : ∀ k : Fin 4096, x0 (ix2 (n0 := 512) (n1 := 4096) (j 0) k) = A (ix2 (n0 := 4096) (n1 := 4096) (i 0) k))
    (h2 : ∀ (k : Fin 4096) (q : Fin 32), x2 (ix2 (n0 := 4096) (n1 := 32) k q) = C (ix2 (n0 := 4096) (n1 := 32) k q))
    (h3 : ∀ q : Fin 32, x3 (ix2 (n0 := 32) (n1 := 128) q (j 1)) = D (ix2 (n0 := 32) (n1 := 128) q (i 1))) :
    pay x0 x2 x3 j = kRec A C D i := by
  rw [hpay]
  show (∑ q : Fin 32, (∑ k : Fin 4096, x0 (ix2 (n0 := 512) (n1 := 4096) (j 0) k) * x2 (ix2 (n0 := 4096) (n1 := 32) k q)) * x3 (ix2 (n0 := 32) (n1 := 128) q (j 1)))
      = ∑ q : Fin 32, (∑ k : Fin 4096, A (ix2 (n0 := 4096) (n1 := 4096) (i 0) k) * C (ix2 (n0 := 4096) (n1 := 32) k q)) * D (ix2 (n0 := 32) (n1 := 128) q (i 1))
  simp only [h0, h2, h3]

/-! ## From the blocks to the arrays -/

variable (V : (c : Dev nD) → (b : Ref sig .tc) → Buf (Elt Ideal) ((c : Thread nD τ).loc b))

/-- The printed index maps, decided over the eight points: an adjacency's block and an output's block at point `t` are
    block-row `t`, block-column `0`; the combined latent's and a decoder's block is the whole array at every point. -/
theorem idx_facts : ∀ t : Fin cfg2.N,
      win2_0.index t (0 : Fin 2) = t.val ∧ win2_0.index t (1 : Fin 2) = 0 ∧
      win2_1.index t (0 : Fin 2) = t.val ∧ win2_1.index t (1 : Fin 2) = 0 ∧
      win2_2.index t (0 : Fin 2) = 0 ∧ win2_2.index t (1 : Fin 2) = 0 ∧
      win2_3.index t (0 : Fin 2) = 0 ∧ win2_3.index t (1 : Fin 2) = 0 ∧
      win2_4.index t (0 : Fin 2) = 0 ∧ win2_4.index t (1 : Fin 2) = 0 ∧
      win2_5.index t (0 : Fin 2) = t.val ∧ win2_5.index t (1 : Fin 2) = 0 ∧
      win2_6.index t (0 : Fin 2) = t.val ∧ win2_6.index t (1 : Fin 2) = 0 :=
  (by decide +kernel : ∀ t : Fin grid2.N, _)

/-- What point `t` writes back through output window 5 is rows `512·t …` of `(A·C)·D` of the launch's input arrays. -/
theorem flushed5 (c : Dev nD) (t : Fin cfg2.N) :
    (dat2 V c).flushed 5 t = ((cfg2.win 5).blk t).view.read (Elt Ideal)
      (kRec (V c main_arg2) (V c main_v5_2) (V c main_arg8)) := by
  show (cfg2.win 5).cut (grid2.coords t) ((dat2 V c).after 5 t) = _
  rw [after2_5]
  unfold out2_5
  rw [View.canon_unit_zero hz]
  simp only [View.ld_unit_zero (S := S512x4096) hz, View.ld_unit_zero (S := S4096x32) hz, View.ld_unit_zero (S := S32x128) hz]
  obtain ⟨e0_0, e0_1, e1_0, e1_1, e2_0, e2_1, e3_0, e3_1, e4_0, e4_1, e5_0, e5_1, e6_0, e6_1⟩ := idx_facts t
  funext j
  show k2_pay1 (F := Ideal) (iblk2 V c 0 t) (iblk2 V c 2 t) (iblk2 V c 3 t) j
      = kRec (V c main_arg2) (V c main_v5_2) (V c main_arg8) (((cfg2.win 5).blk t).view.emb j)
  refine rec_block (k2_pay1 (F := Ideal)) pay1_eq (V c main_arg2) (V c main_v5_2) (V c main_arg8)
    (iblk2 V c 0 t) (iblk2 V c 2 t) (iblk2 V c 3 t) j (((cfg2.win 5).blk t).view.emb j)
    (fun k => ?_) (fun k q => ?_) (fun q => ?_)
  · show V c main_arg2 (((cfg2.win 0).blk t).view.emb (ix2 (n0 := 512) (n1 := 4096) (j 0) k))
        = V c main_arg2 (ix2 (n0 := 4096) (n1 := 4096) ((((cfg2.win 5).blk t).view.emb j) 0) k)
    refine congrArg (V c main_arg2) ?_
    funext a; apply Fin.ext
    match a with
    | ⟨0, _⟩ => show win2_0.index t (0 : Fin 2) * 512 + 1 * (j 0).val = win2_5.index t (0 : Fin 2) * 512 + 1 * (j 0).val; omega
    | ⟨1, _⟩ => show win2_0.index t (1 : Fin 2) * 4096 + 1 * k.val = k.val; omega
  · show V c main_v5_2 (((cfg2.win 2).blk t).view.emb (ix2 (n0 := 4096) (n1 := 32) k q))
        = V c main_v5_2 (ix2 (n0 := 4096) (n1 := 32) k q)
    refine congrArg (V c main_v5_2) ?_
    funext a; apply Fin.ext
    match a with
    | ⟨0, _⟩ => show win2_2.index t (0 : Fin 2) * 4096 + 1 * k.val = k.val; omega
    | ⟨1, _⟩ => show win2_2.index t (1 : Fin 2) * 32 + 1 * q.val = q.val; omega
  · show V c main_arg8 (((cfg2.win 3).blk t).view.emb (ix2 (n0 := 32) (n1 := 128) q (j 1)))
        = V c main_arg8 (ix2 (n0 := 32) (n1 := 128) q ((((cfg2.win 5).blk t).view.emb j) 1))
    refine congrArg (V c main_arg8) ?_
    funext a; apply Fin.ext
    match a with
    | ⟨0, _⟩ => show win2_3.index t (0 : Fin 2) * 32 + 1 * q.val = q.val; omega
    | ⟨1, _⟩ => show win2_3.index t (1 : Fin 2) * 128 + 1 * (j 1).val = win2_5.index t (1 : Fin 2) * 128 + 1 * (j 1).val; omega

/-- An index of the array is in point `t`'s block of window 5 iff each coordinate is in the block's range on its axis. -/
theorem mem_blk5 (t : Fin cfg2.N) (i : S4096x128.Idx) :
    i ∈ ((cfg2.win 5).blk t).view.set ↔ ∀ a : Fin 2, win2_5.index t a * S512x128.size a ≤ (i a).val ∧ (i a).val < win2_5.index t a * S512x128.size a + S512x128.size a := by
  show i ∈ ((View.whole main_v6_0).slice (win2_5.rect t)).set ↔ _
  rw [View.set_slice_whole, Rect.mem_set_unit]
  exact Iff.rfl

/-- Every row `r` of the array is in the block of point `r / 512`: the eight blocks of window 5 tile the array. -/
theorem cover5 (i : S4096x128.Idx) : ∃ t : Fin cfg2.N, (cfg2.win 5).flush t = true ∧ i ∈ ((cfg2.win 5).blk t).view.set := by
  have hi0 : (i 0).val < 4096 := (i 0).isLt
  have hi1 : (i 1).val < 128 := (i 1).isLt
  obtain ⟨t, ht⟩ : ∃ t : Fin cfg2.N, t.val = (i 0).val / 512 :=
    ⟨⟨(i 0).val / 512, by show (i 0).val / 512 < grid2.N; rw [N_2]; omega⟩, rfl⟩
  refine ⟨t, flush2_5 t, ?_⟩
  rw [mem_blk5]
  obtain ⟨e0_0, e0_1, e1_0, e1_1, e2_0, e2_1, e3_0, e3_1, e4_0, e4_1, e5_0, e5_1, e6_0, e6_1⟩ := idx_facts t
  intro a
  match a with
  | ⟨0, _⟩ => show win2_5.index t (0 : Fin 2) * 512 ≤ (i 0).val ∧ (i 0).val < win2_5.index t (0 : Fin 2) * 512 + 512; omega
  | ⟨1, _⟩ => show win2_5.index t (1 : Fin 2) * 128 ≤ (i 1).val ∧ (i 1).val < win2_5.index t (1 : Fin 2) * 128 + 128; omega

/-- After the launch the array of output window 5 is `(A·C)·D` of the launch's input arrays. -/
theorem final5 (c : Dev nD) :
    (dat2 V c).arrAt 5 cfg2.N = kRec (V c main_arg2) (V c main_v5_2) (V c main_arg8) :=
  (dat2 V c).arrAt_eq_of_cover 5 _ (fun t _ => flushed5 V c t) cover5

/-- What point `t` writes back through output window 6 is rows `512·t …` of `(A·C)·D` of the launch's input arrays. -/
theorem flushed6 (c : Dev nD) (t : Fin cfg2.N) :
    (dat2 V c).flushed 6 t = ((cfg2.win 6).blk t).view.read (Elt Ideal)
      (kRec (V c main_arg4) (V c main_v5_2) (V c main_arg9)) := by
  show (cfg2.win 6).cut (grid2.coords t) ((dat2 V c).after 6 t) = _
  rw [after2_6]
  unfold out2_6
  rw [View.canon_unit_zero hz]
  simp only [View.ld_unit_zero (S := S512x4096) hz, View.ld_unit_zero (S := S4096x32) hz, View.ld_unit_zero (S := S32x128) hz]
  obtain ⟨e0_0, e0_1, e1_0, e1_1, e2_0, e2_1, e3_0, e3_1, e4_0, e4_1, e5_0, e5_1, e6_0, e6_1⟩ := idx_facts t
  funext j
  show k2_pay2 (F := Ideal) (iblk2 V c 1 t) (iblk2 V c 2 t) (iblk2 V c 4 t) j
      = kRec (V c main_arg4) (V c main_v5_2) (V c main_arg9) (((cfg2.win 6).blk t).view.emb j)
  refine rec_block (k2_pay2 (F := Ideal)) pay2_eq (V c main_arg4) (V c main_v5_2) (V c main_arg9)
    (iblk2 V c 1 t) (iblk2 V c 2 t) (iblk2 V c 4 t) j (((cfg2.win 6).blk t).view.emb j)
    (fun k => ?_) (fun k q => ?_) (fun q => ?_)
  · show V c main_arg4 (((cfg2.win 1).blk t).view.emb (ix2 (n0 := 512) (n1 := 4096) (j 0) k))
        = V c main_arg4 (ix2 (n0 := 4096) (n1 := 4096) ((((cfg2.win 6).blk t).view.emb j) 0) k)
    refine congrArg (V c main_arg4) ?_
    funext a; apply Fin.ext
    match a with
    | ⟨0, _⟩ => show win2_1.index t (0 : Fin 2) * 512 + 1 * (j 0).val = win2_6.index t (0 : Fin 2) * 512 + 1 * (j 0).val; omega
    | ⟨1, _⟩ => show win2_1.index t (1 : Fin 2) * 4096 + 1 * k.val = k.val; omega
  · show V c main_v5_2 (((cfg2.win 2).blk t).view.emb (ix2 (n0 := 4096) (n1 := 32) k q))
        = V c main_v5_2 (ix2 (n0 := 4096) (n1 := 32) k q)
    refine congrArg (V c main_v5_2) ?_
    funext a; apply Fin.ext
    match a with
    | ⟨0, _⟩ => show win2_2.index t (0 : Fin 2) * 4096 + 1 * k.val = k.val; omega
    | ⟨1, _⟩ => show win2_2.index t (1 : Fin 2) * 32 + 1 * q.val = q.val; omega
  · show V c main_arg9 (((cfg2.win 4).blk t).view.emb (ix2 (n0 := 32) (n1 := 128) q (j 1)))
        = V c main_arg9 (ix2 (n0 := 32) (n1 := 128) q ((((cfg2.win 6).blk t).view.emb j) 1))
    refine congrArg (V c main_arg9) ?_
    funext a; apply Fin.ext
    match a with
    | ⟨0, _⟩ => show win2_4.index t (0 : Fin 2) * 32 + 1 * q.val = q.val; omega
    | ⟨1, _⟩ => show win2_4.index t (1 : Fin 2) * 128 + 1 * (j 1).val = win2_6.index t (1 : Fin 2) * 128 + 1 * (j 1).val; omega

/-- An index of the array is in point `t`'s block of window 6 iff each coordinate is in the block's range on its axis. -/
theorem mem_blk6 (t : Fin cfg2.N) (i : S4096x128.Idx) :
    i ∈ ((cfg2.win 6).blk t).view.set ↔ ∀ a : Fin 2, win2_6.index t a * S512x128.size a ≤ (i a).val ∧ (i a).val < win2_6.index t a * S512x128.size a + S512x128.size a := by
  show i ∈ ((View.whole main_v6_1).slice (win2_6.rect t)).set ↔ _
  rw [View.set_slice_whole, Rect.mem_set_unit]
  exact Iff.rfl

/-- Every row `r` of the array is in the block of point `r / 512`: the eight blocks of window 6 tile the array. -/
theorem cover6 (i : S4096x128.Idx) : ∃ t : Fin cfg2.N, (cfg2.win 6).flush t = true ∧ i ∈ ((cfg2.win 6).blk t).view.set := by
  have hi0 : (i 0).val < 4096 := (i 0).isLt
  have hi1 : (i 1).val < 128 := (i 1).isLt
  obtain ⟨t, ht⟩ : ∃ t : Fin cfg2.N, t.val = (i 0).val / 512 :=
    ⟨⟨(i 0).val / 512, by show (i 0).val / 512 < grid2.N; rw [N_2]; omega⟩, rfl⟩
  refine ⟨t, flush2_6 t, ?_⟩
  rw [mem_blk6]
  obtain ⟨e0_0, e0_1, e1_0, e1_1, e2_0, e2_1, e3_0, e3_1, e4_0, e4_1, e5_0, e5_1, e6_0, e6_1⟩ := idx_facts t
  intro a
  match a with
  | ⟨0, _⟩ => show win2_6.index t (0 : Fin 2) * 512 ≤ (i 0).val ∧ (i 0).val < win2_6.index t (0 : Fin 2) * 512 + 512; omega
  | ⟨1, _⟩ => show win2_6.index t (1 : Fin 2) * 128 ≤ (i 1).val ∧ (i 1).val < win2_6.index t (1 : Fin 2) * 128 + 128; omega

/-- After the launch the array of output window 6 is `(A·C)·D` of the launch's input arrays. -/
theorem final6 (c : Dev nD) :
    (dat2 V c).arrAt 6 cfg2.N = kRec (V c main_arg4) (V c main_v5_2) (V c main_arg9) :=
  (dat2 V c).arrAt_eq_of_cover 6 _ (fun t _ => flushed6 V c t) cover6

end Cert.KernelIdeal.Region2

end
-- ==== Proof.KernelValue.lean ====
/-
  The idealized kernel's five result arrays as functions of its fourteen argument arrays.

  The run leaves every buffer at the contents `W4`, a fold through @main's four segments. Read at a result buffer the fold
  walks back launch by launch: the third launch's outputs are `(A·C)·D` of what it finds in its input buffers; of those the
  combined latent `C` is the second launch's third output, `0.5·(latent₁ + latent₂)`, and each latent `A·R + B·R'` is of the
  scaled projections `R` the first launch wrote, `(f·W)·w`, with `w` the one entry of a scalar argument that the host
  reshaped to a `1 × 1` array before the first launch. No segment writes an argument array, so wherever a launch reads one
  it finds the launch memory's contents. The outcome is the kernel's arrangement of the specification, at the arguments.
-/
import proofs.«110364_g68247030333984_cont_9to1_m_654_3_alg».proof.Proof.Gen.KernelIdeal.Frame
import proofs.«110364_g68247030333984_cont_9to1_m_654_3_alg».proof.Proof.Region0
import proofs.«110364_g68247030333984_cont_9to1_m_654_3_alg».proof.Proof.Region1
import proofs.«110364_g68247030333984_cont_9to1_m_654_3_alg».proof.Proof.Region2
import proofs.«110364_g68247030333984_cont_9to1_m_654_3_alg».proof.Proof.Spec
import Idealize.ShloMosaic.Lib.StableHlo.Run
import Idealize.ShloMosaic.Lib.ValueIdx

set_option maxRecDepth 16384

noncomputable section

namespace Cert.KernelIdeal.Results

open Cert.KernelIdeal Cert.KernelIdeal.Gen Cert.Spec
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- An array with one entry is read at that entry whatever the index. -/
theorem one_entry (x : S1.Idx → EReal) (k : S1.Idx) : x k = x (ix1 (0 : Fin 1)) :=
  congrArg x (funext fun a => Fin.ext (by
    match a with
    | ⟨0, _⟩ =>
      have h : (k 0).val < 1 := (k 0).isLt
      show (k 0).val = 0
      omega))

/-! ## The first launch's entry contents: the arguments as launched, the four scalars reshaped -/

theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_arg9 (c : Dev nD) : W1 m ρ c (Proc.devRef .tc main_arg9) = m ((c : Thread nD τ).loc main_arg9) :=
  (StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- The first reshaped scalar, as the first launch finds it, holds the one entry of argument 10. -/
theorem W1_v0 (c : Dev nD) :
    (W1 m ρ c (Proc.devRef .tc main_v0) : S1x1.Idx → EReal) (ix2 (n0 := 1) (n1 := 1) 0 0)
      = (m ((c : Thread nD τ).loc main_arg10) : S1.Idx → EReal) (ix1 (0 : Fin 1)) := by
  have e : (W1 m ρ c (Proc.devRef .tc main_v0) : S1x1.Idx → EReal)
      = shapeCast S1x1 (m ((c : Thread nD τ).loc main_arg10) : S1.Idx → EReal) shapeCasts_S1_S1x1 := by
    show StableHlo.after hostOps0 (W0 m ρ c) (Proc.devRef .tc main_v0) = _
    after_results
    rfl
  rw [e]
  unfold shapeCast
  exact one_entry _ _

/-- The second reshaped scalar, as the first launch finds it, holds the one entry of argument 12. -/
theorem W1_v1 (c : Dev nD) :
    (W1 m ρ c (Proc.devRef .tc main_v1) : S1x1.Idx → EReal) (ix2 (n0 := 1) (n1 := 1) 0 0)
      = (m ((c : Thread nD τ).loc main_arg12) : S1.Idx → EReal) (ix1 (0 : Fin 1)) := by
  have e : (W1 m ρ c (Proc.devRef .tc main_v1) : S1x1.Idx → EReal)
      = shapeCast S1x1 (m ((c : Thread nD τ).loc main_arg12) : S1.Idx → EReal) shapeCasts_S1_S1x1 := by
    show StableHlo.after hostOps0 (W0 m ρ c) (Proc.devRef .tc main_v1) = _
    after_results
    rfl
  rw [e]
  unfold shapeCast
  exact one_entry _ _

/-- The third reshaped scalar, as the first launch finds it, holds the one entry of argument 11. -/
theorem W1_v2 (c : Dev nD) :
    (W1 m ρ c (Proc.devRef .tc main_v2) : S1x1.Idx → EReal) (ix2 (n0 := 1) (n1 := 1) 0 0)
      = (m ((c : Thread nD τ).loc main_arg11) : S1.Idx → EReal) (ix1 (0 : Fin 1)) := by
  have e : (W1 m ρ c (Proc.devRef .tc main_v2) : S1x1.Idx → EReal)
      = shapeCast S1x1 (m ((c : Thread nD τ).loc main_arg11) : S1.Idx → EReal) shapeCasts_S1_S1x1 := by
    show StableHlo.after hostOps0 (W0 m ρ c) (Proc.devRef .tc main_v2) = _
    after_results
    rfl
  rw [e]
  unfold shapeCast
  exact one_entry _ _

/-- The fourth reshaped scalar, as the first launch finds it, holds the one entry of argument 13. -/
theorem W1_v3 (c : Dev nD) :
    (W1 m ρ c (Proc.devRef .tc main_v3) : S1x1.Idx → EReal) (ix2 (n0 := 1) (n1 := 1) 0 0)
      = (m ((c : Thread nD τ).loc main_arg13) : S1.Idx → EReal) (ix1 (0 : Fin 1)) := by
  have e : (W1 m ρ c (Proc.devRef .tc main_v3) : S1x1.Idx → EReal)
      = shapeCast S1x1 (m ((c : Thread nD τ).loc main_arg13) : S1.Idx → EReal) shapeCasts_S1_S1x1 := by
    show StableHlo.after hostOps0 (W0 m ρ c) (Proc.devRef .tc main_v3) = _
    after_results
    rfl
  rw [e]
  unfold shapeCast
  exact one_entry _ _

/-! ## The second launch's entry contents -/

/-- The arguments the first launch does not stage are as launched. -/
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)

/-- The first launch's output 0: the projected features of argument 0 by argument 6, times the one entry of argument 10. -/
theorem W2_v4_0 (c : Dev nD) : (W2 m ρ c (Proc.devRef .tc main_v4_0) : S4096x32.Idx → EReal)
    = kProj (m ((c : Thread nD τ).loc main_arg0)) (m ((c : Thread nD τ).loc main_arg6)) ((m ((c : Thread nD τ).loc main_arg10) : S1.Idx → EReal) (ix1 (0 : Fin 1))) := by
  refine (W2_arr m ρ c 8).trans ((Region0.final8 (V1 m ρ) c).trans ?_)
  show kProj (W1 m ρ c (Proc.devRef .tc main_arg0)) (W1 m ρ c (Proc.devRef .tc main_arg6)) ((W1 m ρ c (Proc.devRef .tc main_v0) : S1x1.Idx → EReal) (ix2 (n0 := 1) (n1 := 1) 0 0)) = _
  rw [W1_arg0 m ρ c, W1_arg6 m ρ c, W1_v0 m ρ c]

/-- The first launch's output 1: the projected features of argument 0 by argument 6, times the one entry of argument 12. -/
theorem W2_v4_1 (c : Dev nD) : (W2 m ρ c (Proc.devRef .tc main_v4_1) : S4096x32.Idx → EReal)
    = kProj (m ((c : Thread nD τ).loc main_arg0)) (m ((c : Thread nD τ).loc main_arg6)) ((m ((c : Thread nD τ).loc main_arg12) : S1.Idx → EReal) (ix1 (0 : Fin 1))) := by
  refine (W2_arr m ρ c 9).trans ((Region0.final9 (V1 m ρ) c).trans ?_)
  show kProj (W1 m ρ c (Proc.devRef .tc main_arg0)) (W1 m ρ c (Proc.devRef .tc main_arg6)) ((W1 m ρ c (Proc.devRef .tc main_v1) : S1x1.Idx → EReal) (ix2 (n0 := 1) (n1 := 1) 0 0)) = _
  rw [W1_arg0 m ρ c, W1_arg6 m ρ c, W1_v1 m ρ c]

/-- The first launch's output 2: the projected features of argument 1 by argument 7, times the one entry of argument 11. -/
theorem W2_v4_2 (c : Dev nD) : (W2 m ρ c (Proc.devRef .tc main_v4_2) : S4096x32.Idx → EReal)
    = kProj (m ((c : Thread nD τ).loc main_arg1)) (m ((c : Thread nD τ).loc main_arg7)) ((m ((c : Thread nD τ).loc main_arg11) : S1.Idx → EReal) (ix1 (0 : Fin 1))) := by
  refine (W2_arr m ρ c 10).trans ((Region0.final10 (V1 m ρ) c).trans ?_)
  show kProj (W1 m ρ c (Proc.devRef .tc main_arg1)) (W1 m ρ c (Proc.devRef .tc main_arg7)) ((W1 m ρ c (Proc.devRef .tc main_v2) : S1x1.Idx → EReal) (ix2 (n0 := 1) (n1 := 1) 0 0)) = _
  rw [W1_arg1 m ρ c, W1_arg7 m ρ c, W1_v2 m ρ c]

/-- The first launch's output 3: the projected features of argument 1 by argument 7, times the one entry of argument 13. -/
theorem W2_v4_3 (c : Dev nD) : (W2 m ρ c (Proc.devRef .tc main_v4_3) : S4096x32.Idx → EReal)
    = kProj (m ((c : Thread nD τ).loc main_arg1)) (m ((c : Thread nD τ).loc main_arg7)) ((m ((c : Thread nD τ).loc main_arg13) : S1.Idx → EReal) (ix1 (0 : Fin 1))) := by
  refine (W2_arr m ρ c 11).trans ((Region0.final11 (V1 m ρ) c).trans ?_)
  show kProj (W1 m ρ c (Proc.devRef .tc main_arg1)) (W1 m ρ c (Proc.devRef .tc main_arg7)) ((W1 m ρ c (Proc.devRef .tc main_v3) : S1x1.Idx → EReal) (ix2 (n0 := 1) (n1 := 1) 0 0)) = _
  rw [W1_arg1 m ρ c, W1_arg7 m ρ c, W1_v3 m ρ c]

/-! ## The third launch's entry contents -/

/-- The first latent. -/
theorem W3_v5_0 (c : Dev nD) : (W3 m ρ c (Proc.devRef .tc main_v5_0) : S4096x32.Idx → EReal)
    = kLat (m ((c : Thread nD τ).loc main_arg2)) (m ((c : Thread nD τ).loc main_arg3))
        (kProj (m ((c : Thread nD τ).loc main_arg0)) (m ((c : Thread nD τ).loc main_arg6)) ((m ((c : Thread nD τ).loc main_arg10) : S1.Idx → EReal) (ix1 (0 : Fin 1))))
        (kProj (m ((c : Thread nD τ).loc main_arg0)) (m ((c : Thread nD τ).loc main_arg6)) ((m ((c : Thread nD τ).loc main_arg12) : S1.Idx → EReal) (ix1 (0 : Fin 1)))) := by
  refine (W3_arr m ρ c 8).trans ((Region1.final8 (V2 m ρ) c).trans ?_)
  show kLat (W2 m ρ c (Proc.devRef .tc main_arg2)) (W2 m ρ c (Proc.devRef .tc main_arg3)) (W2 m ρ c (Proc.devRef .tc main_v4_0)) (W2 m ρ c (Proc.devRef .tc main_v4_1)) = _
  rw [W2_arg2 m ρ c, W2_arg3 m ρ c, W2_v4_0 m ρ c, W2_v4_1 m ρ c]

/-- The second latent. -/
theorem W3_v5_1 (c : Dev nD) : (W3 m ρ c (Proc.devRef .tc main_v5_1) : S4096x32.Idx → EReal)
    = kLat (m ((c : Thread nD τ).loc main_arg4)) (m ((c : Thread nD τ).loc main_arg5))
        (kProj (m ((c : Thread nD τ).loc main_arg1)) (m ((c : Thread nD τ).loc main_arg7)) ((m ((c : Thread nD τ).loc main_arg11) : S1.Idx → EReal) (ix1 (0 : Fin 1))))
        (kProj (m ((c : Thread nD τ).loc main_arg1)) (m ((c : Thread nD τ).loc main_arg7)) ((m ((c : Thread nD τ).loc main_arg13) : S1.Idx → EReal) (ix1 (0 : Fin 1)))) := by
  refine (W3_arr m ρ c 9).trans ((Region1.final9 (V2 m ρ) c).trans ?_)
  show kLat (W2 m ρ c (Proc.devRef .tc main_arg4)) (W2 m ρ c (Proc.devRef .tc main_arg5)) (W2 m ρ c (Proc.devRef .tc main_v4_2)) (W2 m ρ c (Proc.devRef .tc main_v4_3)) = _
  rw [W2_arg4 m ρ c, W2_arg5 m ρ c, W2_v4_2 m ρ c, W2_v4_3 m ρ c]

/-- The combined latent. -/
theorem W3_v5_2 (c : Dev nD) : (W3 m ρ c (Proc.devRef .tc main_v5_2) : S4096x32.Idx → EReal)
    = kComb (W3 m ρ c (Proc.devRef .tc main_v5_0) : S4096x32.Idx → EReal) (W3 m ρ c (Proc.devRef .tc main_v5_1) : S4096x32.Idx → EReal) := by
  rw [W3_v5_0 m ρ c, W3_v5_1 m ρ c]
  refine (W3_arr m ρ c 10).trans ((Region1.final10 (V2 m ρ) c).trans ?_)
  show kComb (kLat (W2 m ρ c (Proc.devRef .tc main_arg2)) (W2 m ρ c (Proc.devRef .tc main_arg3)) (W2 m ρ c (Proc.devRef .tc main_v4_0)) (W2 m ρ c (Proc.devRef .tc main_v4_1)))
      (kLat (W2 m ρ c (Proc.devRef .tc main_arg4)) (W2 m ρ c (Proc.devRef .tc main_arg5)) (W2 m ρ c (Proc.devRef .tc main_v4_2)) (W2 m ρ c (Proc.devRef .tc main_v4_3))) = _
  rw [W2_arg2 m ρ c, W2_arg3 m ρ c, W2_v4_0 m ρ c, W2_v4_1 m ρ c, W2_arg4 m ρ c, W2_arg5 m ρ c, W2_v4_2 m ρ c, W2_v4_3 m ρ c]

/-- The spatial adjacencies, which the second launch stages but does not write, and the decoders, which it does not stage,
    are as launched. -/
theorem W3_arg2 (c : Dev nD) : W3 m ρ c (Proc.devRef .tc main_arg2) = m ((c : Thread nD τ).loc main_arg2) :=
  ((W3_arr m ρ c 0).trans (((dat1 (V2 m ρ) c).arrAt_in 0 rfl _).trans (A_eq1 (V2 m ρ) c 0))).trans (W2_arg2 m ρ c)
theorem W3_arg4 (c : Dev nD) : W3 m ρ c (Proc.devRef .tc main_arg4) = m ((c : Thread nD τ).loc main_arg4) :=
  ((W3_arr m ρ c 2).trans (((dat1 (V2 m ρ) c).arrAt_in 2 rfl _).trans (A_eq1 (V2 m ρ) c 2))).trans (W2_arg4 m ρ c)
theorem W3_arg8 (c : Dev nD) : W3 m ρ c (Proc.devRef .tc main_arg8) = m ((c : Thread nD τ).loc main_arg8) :=
  (W3_of_ne m ρ c main_arg8 (by decide)).trans (W2_arg8 m ρ c)
theorem W3_arg9 (c : Dev nD) : W3 m ρ c (Proc.devRef .tc main_arg9) = m ((c : Thread nD τ).loc main_arg9) :=
  (W3_of_ne m ρ c main_arg9 (by decide)).trans (W2_arg9 m ρ c)

/-! ## The last boundary: the five results -/

/-- The third launch neither stages nor writes the two latents. -/
theorem W4_v5_0 (c : Dev nD) : W4 m ρ c (Proc.devRef .tc main_v5_0) = W3 m ρ c (Proc.devRef .tc main_v5_0) :=
  W4_of_ne m ρ c main_v5_0 (by decide)
theorem W4_v5_1 (c : Dev nD) : W4 m ρ c (Proc.devRef .tc main_v5_1) = W3 m ρ c (Proc.devRef .tc main_v5_1) :=
  W4_of_ne m ρ c main_v5_1 (by decide)
/-- It stages the combined latent and does not write it. -/
theorem W4_v5_2 (c : Dev nD) : W4 m ρ c (Proc.devRef .tc main_v5_2) = W3 m ρ c (Proc.devRef .tc main_v5_2) :=
  (W4_arr m ρ c 2).trans (((dat2 (V3 m ρ) c).arrAt_in 2 rfl _).trans (A_eq2 (V3 m ρ) c 2))

/-- The first reconstruction. -/
theorem W4_v6_0 (c : Dev nD) : (W4 m ρ c (Proc.devRef .tc main_v6_0) : S4096x128.Idx → EReal)
    = kRec (m ((c : Thread nD τ).loc main_arg2)) (W3 m ρ c (Proc.devRef .tc main_v5_2) : S4096x32.Idx → EReal) (m ((c : Thread nD τ).loc main_arg8)) := by
  refine (W4_arr m ρ c 5).trans ((Region2.final5 (V3 m ρ) c).trans ?_)
  show kRec (W3 m ρ c (Proc.devRef .tc main_arg2)) (W3 m ρ c (Proc.devRef .tc main_v5_2)) (W3 m ρ c (Proc.devRef .tc main_arg8)) = _
  rw [W3_arg2 m ρ c, W3_arg8 m ρ c]

/-- The second reconstruction. -/
theorem W4_v6_1 (c : Dev nD) : (W4 m ρ c (Proc.devRef .tc main_v6_1) : S4096x128.Idx → EReal)
    = kRec (m ((c : Thread nD τ).loc main_arg4)) (W3 m ρ c (Proc.devRef .tc main_v5_2) : S4096x32.Idx → EReal) (m ((c : Thread nD τ).loc main_arg9)) := by
  refine (W4_arr m ρ c 6).trans ((Region2.final6 (V3 m ρ) c).trans ?_)
  show kRec (W3 m ρ c (Proc.devRef .tc main_arg4)) (W3 m ρ c (Proc.devRef .tc main_v5_2)) (W3 m ρ c (Proc.devRef .tc main_arg9)) = _
  rw [W3_arg4 m ρ c, W3_arg9 m ρ c]

end Cert.KernelIdeal.Results

end
-- ==== Proof.lean ====
/-
  The kernel and the reference compute the same five arrays over the extended reals, on finite inputs.

  The programs. From two feature matrices `f₁ f₂` (4096 × 128), two projections `W₁ W₂` (128 × 32), four dense adjacency
  matrices (two spatial `S₁ S₂`, two feature `T₁ T₂`, each 4096 × 4096), four scalars and two decoders `D₁ D₂` (32 × 128),
  the reference computes
      latentₖ  = wₛₖ · (Sₖ · (fₖ · Wₖ)) + wₜₖ · (Tₖ · (fₖ · Wₖ))        (k = 1, 2)
      combined = (latent₁ + latent₂) / 2
      reconₖ   = Sₖ · (combined · Dₖ)
  and returns the two latents, the combined latent and the two reconstructions. The kernel runs three launches: the first
  writes the four scaled projections `(fₖ · Wₖ) · w`; the second, block-row by block-row, the latents as
  `Sₖ · ((fₖ·Wₖ)·wₛₖ) + Tₖ · ((fₖ·Wₖ)·wₜₖ)` and the combined latent as `0.5 · (latent₁ + latent₂)`; the third, block-row by
  block-row, the reconstructions as `(Sₖ · combined) · Dₖ`.

  Why they agree. Moving the scalar across the sum over the contracted index, and re-bracketing the triple product, are
  distributivity and an exchange of two finite sums: true of real numbers, false in general on the extended reals (an
  infinity times a sum of opposite infinities). The precondition says every input is finite, so every entry is a real
  number and so is every intermediate entry, and the identities hold. Halving by the float 0.5 and dividing by the float 2.0
  agree on every extended real. The kernel's side is read off its run launch by launch (each output block is the restriction
  of one whole-array function, and the blocks tile the array), the reference's side off its run operation by operation; the
  two arrangements are then joined by the algebra above.

  The three frame claims are the generated frames (for the reference: its run with the results dropped), and the ideal pass
  rewrote nothing in the kernel, so `preserves` is `True`.
-/
import proofs.«110364_g68247030333984_cont_9to1_m_654_3_alg».proof.Defs
import proofs.«110364_g68247030333984_cont_9to1_m_654_3_alg».proof.Proof.Gen.Kernel
import proofs.«110364_g68247030333984_cont_9to1_m_654_3_alg».proof.Proof.Gen.Kernel.Skeleton
import proofs.«110364_g68247030333984_cont_9to1_m_654_3_alg».proof.Proof.Gen.Kernel.Launch
import proofs.«110364_g68247030333984_cont_9to1_m_654_3_alg».proof.Proof.Gen.Kernel.Points
import proofs.«110364_g68247030333984_cont_9to1_m_654_3_alg».proof.Proof.Gen.Kernel.Frame
import proofs.«110364_g68247030333984_cont_9to1_m_654_3_alg».proof.Proof.Gen.KernelIdeal
import proofs.«110364_g68247030333984_cont_9to1_m_654_3_alg».proof.Proof.Gen.KernelIdeal.Skeleton
import proofs.«110364_g68247030333984_cont_9to1_m_654_3_alg».proof.Proof.Gen.KernelIdeal.Launch
import proofs.«110364_g68247030333984_cont_9to1_m_654_3_alg».proof.Proof.Gen.KernelIdeal.Points
import proofs.«110364_g68247030333984_cont_9to1_m_654_3_alg».proof.Proof.Gen.KernelIdeal.Frame
import proofs.«110364_g68247030333984_cont_9to1_m_654_3_alg».proof.Proof.Gen.ReferenceIdeal
import proofs.«110364_g68247030333984_cont_9to1_m_654_3_alg».proof.Proof.Gen.Pre_finite_inputs
import proofs.«110364_g68247030333984_cont_9to1_m_654_3_alg».proof.Proof.Spec
import proofs.«110364_g68247030333984_cont_9to1_m_654_3_alg».proof.Proof.Algebra
import proofs.«110364_g68247030333984_cont_9to1_m_654_3_alg».proof.Proof.FiniteInputs
import proofs.«110364_g68247030333984_cont_9to1_m_654_3_alg».proof.Proof.RefRun
import proofs.«110364_g68247030333984_cont_9to1_m_654_3_alg».proof.Proof.RefRead
import proofs.«110364_g68247030333984_cont_9to1_m_654_3_alg».proof.Proof.RefSpec
import proofs.«110364_g68247030333984_cont_9to1_m_654_3_alg».proof.Proof.KernelRun
import proofs.«110364_g68247030333984_cont_9to1_m_654_3_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx Cert.Spec

/-- The word-level kernel runs and leaves its arguments unchanged. -/
theorem frame_k : Cert.frame_Kernel :=
  fun m ρ _ => Cert.Kernel.Gen.frame m ρ

/-- The idealized kernel runs and leaves its arguments unchanged. -/
theorem frame_ki : Cert.frame_KernelIdeal :=
  fun m ρ _ => Cert.KernelIdeal.Gen.frame m ρ

/-- The reference runs and leaves its arguments unchanged: its run, the five results dropped. -/
theorem frame_ri : Cert.frame_ReferenceIdeal :=
  fun m ρ _ => (θ_run Cert.ReferenceIdeal.defs _ _).mono (fun _ h c => (h c).2.2.2.2.2)
    (Cert.ReferenceIdeal.ValueP.run (F := Ideal) m ρ)

/-- The reference's first latent, at the kernel's finite arguments, is what the kernel leaves in its first result array. -/
theorem res_latent1 (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = fun _ => 1#1) :
    Cert.ReferenceIdeal.ReadP.val_main_v14 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg10)) (m ((c.tc : Thread Cert.KernelIdeal.nD Cert.KernelIdeal.τ).loc Cert.KernelIdeal.main_arg12))
      = Cert.KernelIdeal.Gen.W4 m ρ c (Proc.devRef .tc Cert.KernelIdeal.main_v5_0) := by
  obtain ⟨f0, f1, f2, f3, f4, f5, f6, f7, f8, f9, f10, f11, f12, f13⟩ :=
    Cert.FiniteInputs.finite_of_fn _ _ _ _ _ _ _ _ _ _ _ _ _ _ hpre
  obtain ⟨e1, e2, e3, e4, e5⟩ := Cert.Spec.results_eq f0 f1 f2 f3 f4 f5 f6 f7 f8 f9
    (f10 (ix1 (0 : Fin 1))) (f11 (ix1 (0 : Fin 1))) (f12 (ix1 (0 : Fin 1))) (f13 (ix1 (0 : Fin 1)))
  rw [Cert.RefSpec.v14_eq]
  show _ = Cert.KernelIdeal.Gen.W4 m ρ c (Proc.devRef .tc Cert.KernelIdeal.main_v5_0)
  rw [Cert.KernelIdeal.Results.W4_v5_0 m ρ c, Cert.KernelIdeal.Results.W3_v5_0 m ρ c]
  exact e1.symm

/-- The reference's second latent is what the kernel leaves in its second result array. -/
theorem res_latent2 (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = fun _ => 1#1) :
    Cert.ReferenceIdeal.ReadP.val_main_v21 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg11)) (m ((c.tc : Thread Cert.KernelIdeal.nD Cert.KernelIdeal.τ).loc Cert.KernelIdeal.main_arg13))
      = Cert.KernelIdeal.Gen.W4 m ρ c (Proc.devRef .tc Cert.KernelIdeal.main_v5_1) := by
  obtain ⟨f0, f1, f2, f3, f4, f5, f6, f7, f8, f9, f10, f11, f12, f13⟩ :=
    Cert.FiniteInputs.finite_of_fn _ _ _ _ _ _ _ _ _ _ _ _ _ _ hpre
  obtain ⟨e1, e2, e3, e4, e5⟩ := Cert.Spec.results_eq f0 f1 f2 f3 f4 f5 f6 f7 f8 f9
    (f10 (ix1 (0 : Fin 1))) (f11 (ix1 (0 : Fin 1))) (f12 (ix1 (0 : Fin 1))) (f13 (ix1 (0 : Fin 1)))
  rw [Cert.RefSpec.v21_eq]
  show _ = Cert.KernelIdeal.Gen.W4 m ρ c (Proc.devRef .tc Cert.KernelIdeal.main_v5_1)
  rw [Cert.KernelIdeal.Results.W4_v5_1 m ρ c, Cert.KernelIdeal.Results.W3_v5_1 m ρ c]
  exact e2.symm

/-- The reference's combined latent is what the kernel leaves in its third result array. -/
theorem res_combined (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = fun _ => 1#1) :
    Cert.ReferenceIdeal.ReadP.val_main_v24 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      = Cert.KernelIdeal.Gen.W4 m ρ c (Proc.devRef .tc Cert.KernelIdeal.main_v5_2) := by
  obtain ⟨f0, f1, f2, f3, f4, f5, f6, f7, f8, f9, f10, f11, f12, f13⟩ :=
    Cert.FiniteInputs.finite_of_fn _ _ _ _ _ _ _ _ _ _ _ _ _ _ hpre
  obtain ⟨e1, e2, e3, e4, e5⟩ := Cert.Spec.results_eq f0 f1 f2 f3 f4 f5 f6 f7 f8 f9
    (f10 (ix1 (0 : Fin 1))) (f11 (ix1 (0 : Fin 1))) (f12 (ix1 (0 : Fin 1))) (f13 (ix1 (0 : Fin 1)))
  rw [Cert.RefSpec.v24_eq]
  show _ = Cert.KernelIdeal.Gen.W4 m ρ c (Proc.devRef .tc Cert.KernelIdeal.main_v5_2)
  rw [Cert.KernelIdeal.Results.W4_v5_2 m ρ c, Cert.KernelIdeal.Results.W3_v5_2 m ρ c, Cert.KernelIdeal.Results.W3_v5_0 m ρ c, Cert.KernelIdeal.Results.W3_v5_1 m ρ c]
  exact e3.symm

/-- The reference's first reconstruction is what the kernel leaves in its fourth result array. -/
theorem res_recon1 (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = fun _ => 1#1) :
    Cert.ReferenceIdeal.ReadP.val_main_v26 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      = Cert.KernelIdeal.Gen.W4 m ρ c (Proc.devRef .tc Cert.KernelIdeal.main_v6_0) := by
  obtain ⟨f0, f1, f2, f3, f4, f5, f6, f7, f8, f9, f10, f11, f12, f13⟩ :=
    Cert.FiniteInputs.finite_of_fn _ _ _ _ _ _ _ _ _ _ _ _ _ _ hpre
  obtain ⟨e1, e2, e3, e4, e5⟩ := Cert.Spec.results_eq f0 f1 f2 f3 f4 f5 f6 f7 f8 f9
    (f10 (ix1 (0 : Fin 1))) (f11 (ix1 (0 : Fin 1))) (f12 (ix1 (0 : Fin 1))) (f13 (ix1 (0 : Fin 1)))
  rw [Cert.RefSpec.v26_eq]
  show _ = Cert.KernelIdeal.Gen.W4 m ρ c (Proc.devRef .tc Cert.KernelIdeal.main_v6_0)
  rw [Cert.KernelIdeal.Results.W4_v6_0 m ρ c, Cert.KernelIdeal.Results.W3_v5_2 m ρ c, Cert.KernelIdeal.Results.W3_v5_0 m ρ c, Cert.KernelIdeal.Results.W3_v5_1 m ρ c]
  exact e4.symm

/-- The reference's second reconstruction is what the kernel leaves in its fifth result array. -/
theorem res_recon2 (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = fun _ => 1#1) :
    Cert.ReferenceIdeal.ReadP.val_main_v28 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      = Cert.KernelIdeal.Gen.W4 m ρ c (Proc.devRef .tc Cert.KernelIdeal.main_v6_1) := by
  obtain ⟨f0, f1, f2, f3, f4, f5, f6, f7, f8, f9, f10, f11, f12, f13⟩ :=
    Cert.FiniteInputs.finite_of_fn _ _ _ _ _ _ _ _ _ _ _ _ _ _ hpre
  obtain ⟨e1, e2, e3, e4, e5⟩ := Cert.Spec.results_eq f0 f1 f2 f3 f4 f5 f6 f7 f8 f9
    (f10 (ix1 (0 : Fin 1))) (f11 (ix1 (0 : Fin 1))) (f12 (ix1 (0 : Fin 1))) (f13 (ix1 (0 : Fin 1)))
  rw [Cert.RefSpec.v28_eq]
  show _ = Cert.KernelIdeal.Gen.W4 m ρ c (Proc.devRef .tc Cert.KernelIdeal.main_v6_1)
  rw [Cert.KernelIdeal.Results.W4_v6_1 m ρ c, Cert.KernelIdeal.Results.W3_v5_2 m ρ c, Cert.KernelIdeal.Results.W3_v5_0 m ρ c, Cert.KernelIdeal.Results.W3_v5_1 m ρ c]
  exact e5.symm

/-- From memories that agree on the fourteen finite arguments both idealized programs run, and their five results are equal
    entry by entry: each result of the reference's run is its stage at the reference's arguments, which are the kernel's, and
    that stage is what the kernel's run leaves in the corresponding result array. -/
theorem algebraic : Cert.algebraic_KernelIdeal_ReferenceIdeal := by
  intro m ρ m' ρ' hpre hagree
  refine ⟨fun c => Cert.KernelIdeal.Gen.W4 m ρ c (Proc.devRef .tc Cert.KernelIdeal.main_v5_0), fun c => Cert.KernelIdeal.Gen.W4 m ρ c (Proc.devRef .tc Cert.KernelIdeal.main_v5_1),
    fun c => Cert.KernelIdeal.Gen.W4 m ρ c (Proc.devRef .tc Cert.KernelIdeal.main_v5_2), fun c => Cert.KernelIdeal.Gen.W4 m ρ c (Proc.devRef .tc Cert.KernelIdeal.main_v6_0),
    fun c => Cert.KernelIdeal.Gen.W4 m ρ c (Proc.devRef .tc Cert.KernelIdeal.main_v6_1), Cert.KernelIdeal.Run.run_named (F := Ideal) m ρ, ?_⟩
  refine (θ_run Cert.ReferenceIdeal.defs _ _).mono (fun r h c => ?_) (Cert.ReferenceIdeal.ValueP.run (F := Ideal) m' ρ')
  obtain ⟨h14, h21, h24, h26, h28, hargs⟩ := h c
  obtain ⟨g0, g1, g2, g3, g4, g5, g6, g7, g8, g9, g10, g11, g12, g13⟩ := hagree c
  refine ⟨h14.trans ?_, h21.trans ?_, h24.trans ?_, h26.trans ?_, h28.trans ?_, hargs⟩
  · rw [Cert.ReferenceIdeal.ReadP.val_main_v14_eq, g0, g2, g3, g6, g10, g12]
    exact res_latent1 m ρ c (hpre c)
  · rw [Cert.ReferenceIdeal.ReadP.val_main_v21_eq, g1, g4, g5, g7, g11, g13]
    exact res_latent2 m ρ c (hpre c)
  · rw [Cert.ReferenceIdeal.ReadP.val_main_v24_eq, g0, g1, g2, g3, g4, g5, g6, g7, g10, g11, g12, g13]
    exact res_combined m ρ c (hpre c)
  · rw [Cert.ReferenceIdeal.ReadP.val_main_v26_eq, g0, g1, g2, g3, g4, g5, g6, g7, g8, g10, g11, g12, g13]
    exact res_recon1 m ρ c (hpre c)
  · rw [Cert.ReferenceIdeal.ReadP.val_main_v28_eq, g0, g1, g2, g3, g4, g5, g6, g7, g9, g10, g11, g12, g13]
    exact res_recon2 m ρ c (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
